-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x3x128 : Shape := ⟨3, ![10000, 3, 128]⟩
abbrev S2x320000 : Shape := ⟨2, ![2, 320000]⟩
abbrev S320000x20 : Shape := ⟨2, ![320000, 20]⟩
abbrev S320000x3 : Shape := ⟨2, ![320000, 3]⟩
abbrev S320000 : Shape := ⟨1, ![320000]⟩
abbrev S128x384 : Shape := ⟨2, ![128, 384]⟩
abbrev S384 : Shape := ⟨1, ![384]⟩
abbrev S384x384 : Shape := ⟨2, ![384, 384]⟩
abbrev S20x128 : Shape := ⟨2, ![20, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x3x128 : S_.BroadcastsInDim S10000x3x128 (![] : Fin 0 → Fin S10000x3x128.rank)
  reducesTo_S10000x3x128_S_d0_1_2 : S10000x3x128.ReducesTo [0, 1, 2] S_
  bcast_S_S320000x20 : S_.BroadcastsInDim S320000x20 (![] : Fin 0 → Fin S320000x20.rank)
  reducesTo_S320000x20_S_d0_1 : S320000x20.ReducesTo [0, 1] S_
  bcast_S_S320000x3 : S_.BroadcastsInDim S320000x3 (![] : Fin 0 → Fin S320000x3.rank)
  reducesTo_S320000x3_S_d0_1 : S320000x3.ReducesTo [0, 1] S_
  bcast_S_S320000 : S_.BroadcastsInDim S320000 (![] : Fin 0 → Fin S320000.rank)
  reducesTo_S320000_S_d0 : S320000.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S384x384 : S_.BroadcastsInDim S384x384 (![] : Fin 0 → Fin S384x384.rank)
  reducesTo_S384x384_S_d0_1 : S384x384.ReducesTo [0, 1] S_
  bcast_S_S20x128 : S_.BroadcastsInDim S20x128 (![] : Fin 0 → Fin S20x128.rank)
  reducesTo_S20x128_S_d0_1 : S20x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128x384 .f32) (main_arg13 : FVec F S384 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x384 .f32 := Host.absf main_arg12
  let main_cst_20 : FVec F S_ .f32 := constant S_ .f32 0x7F800000#32
  let main_v55 : FVec F S128x384 .f32 := broadcastInDim S128x384 ![] bcast_S_S128x384 main_cst_20
  let main_v56 : IVec S128x384 1 := cmpf .olt main_v54 main_v55
  let main_c_21 : IVec S_ 1 := constantI S_ 1 1#1
  let main_v57 : IVec S_ 1 := (fun x v => Host.reduce IntOp.andi x v reducesTo_S128x384_S_d0_1 h_S_) main_v56 main_c_21
  let main_v58 : IVec S_ 1 := andi main_v53 main_v57
  let main_v59 : FVec F S384 .f32 := Host.absf main_arg13
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  main_v63

def fn_part2 {F : FTy → Type} [FloatOps F] (main_arg8 : FVec F S384x384 .f32) (main_arg9 : FVec F S384 .f32) (main_arg10 : FVec F S20x128 .f32) (main_arg11 : FVec F S128 .f32) (main_arg12 : FVec F S128x384 .f32) (main_arg13 : FVec F S384 .f32) (main_v33 : IVec S_ 1) : IVec S_ 1 :=
  let main_v34 : FVec F S384x384 .f32 := Host.absf main_arg8
  let main_cst_12 : FVec F S_ .f32 := constant S_ .f32 0x7F800000#32
  let main_v35 : FVec F S384x384 .f32 := broadcastInDim S384x384 ![] bcast_S_S384x384 main_cst_12
  let main_v36 : IVec S384x384 1 := cmpf .olt main_v34 main_v35
  let main_c_13 : IVec S_ 1 := constantI S_ 1 1#1
  let main_v37 : IVec S_ 1 := (fun x v => Host.reduce IntOp.andi x v reducesTo_S384x384_S_d0_1 h_S_) main_v36 main_c_13
  let main_v38 : IVec S_ 1 := andi main_v33 main_v37
  let main_v39 : FVec F S384 .f32 := Host.absf main_arg9
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S20x128 .f32 := Host.absf main_arg10
  let main_cst_16 : FVec F S_ .f32 := constant S_ .f32 0x7F800000#32
  let main_v45 : FVec F S20x128 .f32 := broadcastInDim S20x128 ![] bcast_S_S20x128 main_cst_16
  let main_v46 : IVec S20x128 1 := cmpf .olt main_v44 main_v45
  let main_c_17 : IVec S_ 1 := constantI S_ 1 1#1
  let main_v47 : IVec S_ 1 := (fun x v => Host.reduce IntOp.andi x v reducesTo_S20x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S320000 .f32) (main_arg6 : FVec F S128x384 .f32) (main_arg7 : FVec F S384 .f32) (main_arg8 : FVec F S384x384 .f32) (main_arg9 : FVec F S384 .f32) (main_arg10 : FVec F S20x128 .f32) (main_arg11 : FVec F S128 .f32) (main_arg12 : FVec F S128x384 .f32) (main_arg13 : FVec F S384 .f32) (main_v13 : IVec S_ 1) (main_v16 : IVec S320000x3 1) : IVec S_ 1 :=
  let main_c_5 : IVec S_ 1 := constantI S_ 1 1#1
  let main_v17 : IVec S_ 1 := (fun x v => Host.reduce IntOp.andi x v reducesTo_S320000x3_S_d0_1 h_S_) main_v16 main_c_5
  let main_v18 : IVec S_ 1 := andi main_v13 main_v17
  let main_v19 : FVec F S320000 .f32 := Host.absf main_arg5
  let main_cst_6 : FVec F S_ .f32 := constant S_ .f32 0x7F800000#32
  let main_v20 : FVec F S320000 .f32 := broadcastInDim S320000 ![] bcast_S_S320000 main_cst_6
  let main_v21 : IVec S320000 1 := cmpf .olt main_v19 main_v20
  let main_c_7 : IVec S_ 1 := constantI S_ 1 1#1
  let main_v22 : IVec S_ 1 := (fun x v => Host.reduce IntOp.andi x v reducesTo_S320000_S_d0 h_S_) main_v21 main_c_7
  let main_v23 : IVec S_ 1 := andi main_v18 main_v22
  let main_v24 : FVec F S128x384 .f32 := Host.absf main_arg6
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S10000x128 .f32) (main_arg1 : FVec F S10000x3x128 .f32) (main_arg2 : IVec S2x320000 32) (main_arg3 : FVec F S320000x20 .f32) (main_arg4 : FVec F S320000x3 .f32) (main_arg5 : FVec F S320000 .f32) (main_arg6 : FVec F S128x384 .f32) (main_arg7 : FVec F S384 .f32) (main_arg8 : FVec F S384x384 .f32) (main_arg9 : FVec F S384 .f32) (main_arg10 : FVec F S20x128 .f32) (main_arg11 : FVec F S128 .f32) (main_arg12 : FVec F S128x384 .f32) (main_arg13 : FVec F S384 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x3x128 .f32 := Host.absf main_arg1
  let main_cst_0 : FVec F S_ .f32 := constant S_ .f32 0x7F800000#32
  let main_v5 : FVec F S10000x3x128 .f32 := broadcastInDim S10000x3x128 ![] bcast_S_S10000x3x128 main_cst_0
  let main_v6 : IVec S10000x3x128 1 := cmpf .olt main_v4 main_v5
  let main_c_1 : IVec S_ 1 := constantI S_ 1 1#1
  let main_v7 : IVec S_ 1 := (fun x v => Host.reduce IntOp.andi x v reducesTo_S10000x3x128_S_d0_1_2 h_S_) main_v6 main_c_1
  let main_v8 : IVec S_ 1 := andi main_v3 main_v7
  let main_v9 : FVec F S320000x20 .f32 := Host.absf main_arg3
  let main_cst_2 : FVec F S_ .f32 := constant S_ .f32 0x7F800000#32
  let main_v10 : FVec F S320000x20 .f32 := broadcastInDim S320000x20 ![] bcast_S_S320000x20 main_cst_2
  let main_v11 : IVec S320000x20 1 := cmpf .olt main_v9 main_v10
  let main_c_3 : IVec S_ 1 := constantI S_ 1 1#1
  let main_v12 : IVec S_ 1 := (fun x v => Host.reduce IntOp.andi x v reducesTo_S320000x20_S_d0_1 h_S_) main_v11 main_c_3
  let main_v13 : IVec S_ 1 := andi main_v8 main_v12
  let main_v14 : FVec F S320000x3 .f32 := Host.absf main_arg4
  let main_cst_4 : FVec F S_ .f32 := constant S_ .f32 0x7F800000#32
  let main_v15 : FVec F S320000x3 .f32 := broadcastInDim S320000x3 ![] bcast_S_S320000x3 main_cst_4
  let main_v16 : IVec S320000x3 1 := cmpf .olt main_v14 main_v15
  fn_part1 (F := F) main_arg5 main_arg6 main_arg7 main_arg8 main_arg9 main_arg10 main_arg11 main_arg12 main_arg13 main_v13 main_v16
-- ==== Kernel.lean ====
abbrev S10000x128 : Shape := ⟨2, ![10000, 128]⟩
abbrev S10000x3x128 : Shape := ⟨3, ![10000, 3, 128]⟩
abbrev S2x320000 : Shape := ⟨2, ![2, 320000]⟩
abbrev S320000x20 : Shape := ⟨2, ![320000, 20]⟩
abbrev S320000x3 : Shape := ⟨2, ![320000, 3]⟩
abbrev S320000 : Shape := ⟨1, ![320000]⟩
abbrev S128x384 : Shape := ⟨2, ![128, 384]⟩
abbrev S384 : Shape := ⟨1, ![384]⟩
abbrev S384x384 : Shape := ⟨2, ![384, 384]⟩
abbrev S20x128 : Shape := ⟨2, ![20, 128]⟩
abbrev S128 : Shape := ⟨1, ![128]⟩
abbrev S320000x1 : Shape := ⟨2, ![320000, 1]⟩
abbrev S1x128 : Shape := ⟨2, ![1, 128]⟩
abbrev S1x384 : Shape := ⟨2, ![1, 384]⟩
abbrev S320000x384 : Shape := ⟨2, ![320000, 384]⟩
abbrev S6400x20 : Shape := ⟨2, ![6400, 20]⟩
abbrev S6400x1 : Shape := ⟨2, ![6400, 1]⟩
abbrev S6400x384 : Shape := ⟨2, ![6400, 384]⟩
abbrev S6400x128 : Shape := ⟨2, ![6400, 128]⟩
abbrev S10000x384 : Shape := ⟨2, ![10000, 384]⟩
abbrev S2000x128 : Shape := ⟨2, ![2000, 128]⟩
abbrev S2000x384 : Shape := ⟨2, ![2000, 384]⟩
abbrev S320000x128 : Shape := ⟨2, ![320000, 128]⟩
abbrev S1x320000 : Shape := ⟨2, ![1, 320000]⟩
abbrev S_ : Shape := ⟨0, ![]⟩
abbrev S320000x3x128 : Shape := ⟨3, ![320000, 3, 128]⟩
abbrev S320000x3x1 : Shape := ⟨3, ![320000, 3, 1]⟩
abbrev S320000x1x128 : Shape := ⟨3, ![320000, 1, 128]⟩

abbrev nBuf : Space → Nat
  | .hbm => 93
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x3x128, .f32⟩
  | .hbm, ⟨2, _⟩ => ⟨S2x320000, .i32⟩
  | .hbm, ⟨3, _⟩ => ⟨S320000x20, .f32⟩
  | .hbm, ⟨4, _⟩ => ⟨S320000x3, .f32⟩
  | .hbm, ⟨5, _⟩ => ⟨S320000, .f32⟩
  | .hbm, ⟨6, _⟩ => ⟨S128x384, .f32⟩
  | .hbm, ⟨7, _⟩ => ⟨S384, .f32⟩
  | .hbm, ⟨8, _⟩ => ⟨S384x384, .f32⟩
  | .hbm, ⟨9, _⟩ => ⟨S384, .f32⟩
  | .hbm, ⟨10, _⟩ => ⟨S20x128, .f32⟩
  | .hbm, ⟨11, _⟩ => ⟨S128, .f32⟩
  | .hbm, ⟨12, _⟩ => ⟨S128x384, .f32⟩
  | .hbm, ⟨13, _⟩ => ⟨S384, .f32⟩
  | .hbm, ⟨14, _⟩ => ⟨S320000x1, .f32⟩
  | .hbm, ⟨15, _⟩ => ⟨S1x128, .f32⟩
  | .hbm, ⟨16, _⟩ => ⟨S1x384, .f32⟩
  | .hbm, ⟨17, _⟩ => ⟨S20x128, .bf16⟩
  | .hbm, ⟨18, _⟩ => ⟨S128x384, .bf16⟩
  | .hbm, ⟨19, _⟩ => ⟨S320000x384, .f32⟩
  | .hbm, ⟨20, _⟩ => ⟨S1x384, .f32⟩
  | .hbm, ⟨21, _⟩ => ⟨S1x384, .f32⟩
  | .hbm, ⟨22, _⟩ => ⟨S128x384, .bf16⟩
  | .hbm, ⟨23, _⟩ => ⟨S384x384, .bf16⟩
  | .hbm, ⟨24, _⟩ => ⟨S10000x384, .f32⟩
  | .hbm, ⟨25, _⟩ => ⟨S320000x128, .f32⟩
  | .hbm, ⟨26, _⟩ => ⟨S320000x128, .f32⟩
  | .hbm, ⟨27, _⟩ => ⟨S320000x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S1x320000, .i32⟩
  | .hbm, ⟨32, _⟩ => ⟨S320000, .i32⟩
  | .hbm, ⟨33, _⟩ => ⟨S1x320000, .i32⟩
  | .hbm, ⟨34, _⟩ => ⟨S320000, .i32⟩
  | .hbm, ⟨35, _⟩ => ⟨S_, .i32⟩
  | .hbm, ⟨36, _⟩ => ⟨S320000, .i32⟩
  | .hbm, ⟨37, _⟩ => ⟨S320000, .i1⟩
  | .hbm, ⟨38, _⟩ => ⟨S_, .i32⟩
  | .hbm, ⟨39, _⟩ => ⟨S320000, .i32⟩
  | .hbm, ⟨40, _⟩ => ⟨S320000, .i32⟩
  | .hbm, ⟨41, _⟩ => ⟨S320000, .i32⟩
  | .hbm, ⟨42, _⟩ => ⟨S320000x1, .i32⟩
  | .hbm, ⟨43, _⟩ => ⟨S320000x128, .f32⟩
  | .hbm, ⟨44, _⟩ => ⟨S320000x128, .f32⟩
  | .hbm, ⟨45, _⟩ => ⟨S_, .f32⟩
  | .hbm, ⟨46, _⟩ => ⟨S10000x128, .f32⟩
  | .hbm, ⟨47, _⟩ => ⟨S320000x1, .i32⟩
  | .hbm, ⟨48, _⟩ => ⟨S10000x128, .f32⟩
  | .hbm, ⟨49, _⟩ => ⟨S_, .i32⟩
  | .hbm, ⟨50, _⟩ => ⟨S320000, .i32⟩
  | .hbm, ⟨51, _⟩ => ⟨S320000, .i1⟩
  | .hbm, ⟨52, _⟩ => ⟨S_, .i32⟩
  | .hbm, ⟨53, _⟩ => ⟨S320000, .i32⟩
  | .hbm, ⟨54, _⟩ => ⟨S320000, .i32⟩
  | .hbm, ⟨55, _⟩ => ⟨S320000, .i32⟩
  | .hbm, ⟨56, _⟩ => ⟨S320000x1, .i32⟩
  | .hbm, ⟨57, _⟩ => ⟨S320000x128, .f32⟩
  | .hbm, ⟨58, _⟩ => ⟨S320000x128, .f32⟩
  | .hbm, ⟨59, _⟩ => ⟨S_, .i32⟩
  | .hbm, ⟨60, _⟩ => ⟨S320000, .i32⟩
  | .hbm, ⟨61, _⟩ => ⟨S320000, .i1⟩
  | .hbm, ⟨62, _⟩ => ⟨S_, .i32⟩
  | .hbm, ⟨63, _⟩ => ⟨S320000, .i32⟩
  | .hbm, ⟨64, _⟩ => ⟨S320000, .i32⟩
  | .hbm, ⟨65, _⟩ => ⟨S320000, .i32⟩
  | .hbm, ⟨66, _⟩ => ⟨S320000x1, .i32⟩
  | .hbm, ⟨67, _⟩ => ⟨S320000x128, .f32⟩
  | .hbm, ⟨68, _⟩ => ⟨S320000x128, .f32⟩
  | .hbm, ⟨69, _⟩ => ⟨S_, .i32⟩
  | .hbm, ⟨70, _⟩ => ⟨S320000, .i32⟩
  | .hbm, ⟨71, _⟩ => ⟨S320000, .i1⟩
  | .hbm, ⟨72, _⟩ => ⟨S_, .i32⟩
  | .hbm, ⟨73, _⟩ => ⟨S320000, .i32⟩
  | .hbm, ⟨74, _⟩ => ⟨S320000, .i32⟩
  | .hbm, ⟨75, _⟩ => ⟨S320000, .i32⟩
  | .hbm, ⟨76, _⟩ => ⟨S320000x1, .i32⟩
  | .hbm, ⟨77, _⟩ => ⟨S320000x3x128, .f32⟩
  | .hbm, ⟨78, _⟩ => ⟨S320000x3x1, .f32⟩
  | .hbm, ⟨79, _⟩ => ⟨S320000x1x128, .f32⟩
  | .hbm, ⟨80, _⟩ => ⟨S320000x3x128, .f32⟩
  | .hbm, ⟨81, _⟩ => ⟨S320000x3x128, .f32⟩
  | .hbm, ⟨82, _⟩ => ⟨S320000x3x128, .f32⟩
  | .hbm, ⟨83, _⟩ => ⟨S320000x1x128, .f32⟩
  | .hbm, ⟨84, _⟩ => ⟨S320000x3x128, .f32⟩
  | .hbm, ⟨85, _⟩ => ⟨S320000x3x128, .f32⟩
  | .hbm, ⟨86, _⟩ => ⟨S320000x3x128, .f32⟩
  | .hbm, ⟨87, _⟩ => ⟨S_, .f32⟩
  | .hbm, ⟨88, _⟩ => ⟨S10000x3x128, .f32⟩
  | .hbm, ⟨89, _⟩ => ⟨S320000x1, .i32⟩
  | .hbm, ⟨90, _⟩ => ⟨S10000x3x128, .f32⟩
  | .hbm, ⟨91, _⟩ => ⟨S10000x128, .f32⟩
  | .hbm, ⟨92, _⟩ => ⟨S10000x3x128, .f32⟩
  | .local _ .vmem, ⟨0, _⟩ => ⟨S6400x20, .f32⟩
  | .local _ .vmem, ⟨1, _⟩ => ⟨S6400x20, .f32⟩
  | .local _ .vmem, ⟨2, _⟩ => ⟨S6400x1, .f32⟩
  | .local _ .vmem, ⟨3, _⟩ => ⟨S6400x1, .f32⟩
  | .local _ .vmem, ⟨4, _⟩ => ⟨S20x128, .bf16⟩
  | .local _ .vmem, ⟨5, _⟩ => ⟨S1x128, .f32⟩
  | .local _ .vmem, ⟨6, _⟩ => ⟨S128x384, .bf16⟩
  | .local _ .vmem, ⟨7, _⟩ => ⟨S1x384, .f32⟩
  | .local _ .vmem, ⟨8, _⟩ => ⟨S6400x384, .f32⟩
  | .local _ .vmem, ⟨9, _⟩ => ⟨S6400x384, .f32⟩
  | .local _ .vmem, ⟨10, _⟩ => ⟨S2000x128, .f32⟩
  | .local _ .vmem, ⟨11, _⟩ => ⟨S2000x128, .f32⟩
  | .local _ .vmem, ⟨12, _⟩ => ⟨S128x384, .bf16⟩
  | .local _ .vmem, ⟨13, _⟩ => ⟨S1x384, .f32⟩
  | .local _ .vmem, ⟨14, _⟩ => ⟨S384x384, .bf16⟩
  | .local _ .vmem, ⟨15, _⟩ => ⟨S1x384, .f32⟩
  | .local _ .vmem, ⟨16, _⟩ => ⟨S2000x384, .f32⟩
  | .local _ .vmem, ⟨17, _⟩ => ⟨S2000x384, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_c_0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_1 : Ref sig .tc := ⟨.hbm, 49, rfl⟩
abbrev main_v32 : Ref sig .tc := ⟨.hbm, 50, rfl⟩
abbrev main_v33 : Ref sig .tc := ⟨.hbm, 51, rfl⟩
abbrev main_c_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_3 : Ref sig .tc := ⟨.hbm, 59, rfl⟩
abbrev main_v40 : Ref sig .tc := ⟨.hbm, 60, rfl⟩
abbrev main_v41 : Ref sig .tc := ⟨.hbm, 61, rfl⟩
abbrev main_c_4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_5 : Ref sig .tc := ⟨.hbm, 69, rfl⟩
abbrev main_v48 : Ref sig .tc := ⟨.hbm, 70, rfl⟩
abbrev main_v49 : Ref sig .tc := ⟨.hbm, 71, rfl⟩
abbrev main_c_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_7 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384x384 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S320000_S320000x1 : S320000.ShapeCasts S320000x1
  shapeCasts_S128_S1x128 : S128.ShapeCasts S1x128
  shapeCasts_S384_S1x384 : S384.ShapeCasts S1x384
  bitsLt_bf16_f32 : FTy.bits .bf16 < FTy.bits .f32
  inb_S6400x20_S6400x20_0_0 : ∀ a, (![0, 0] : Fin 2 → Nat) a + S6400x20.size a ≤ S6400x20.size a
  h_S6400x20 : 0 < S6400x20.numel
  inb_S20x128_S20x128_0_0 : ∀ a, (![0, 0] : Fin 2 → Nat) a + S20x128.size a ≤ S20x128.size a
  h_S20x128 : 0 < S20x128.numel
  shapeCasts_S20x128_S20x128 : S20x128.ShapeCasts S20x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S6400x384 : S1x384.Broadcasts S6400x384
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x384 : S6400x1.Broadcasts S6400x384
  inb_S6400x384_S6400x384_0_0 : ∀ a, (![0, 0] : Fin 2 → Nat) a + S6400x384.size a ≤ S6400x384.size a
  h_S6400x384 : 0 < S6400x384.numel
  inb_S2000x128_S2000x128_0_0 : ∀ a, (![0, 0] : Fin 2 → Nat) a + S2000x128.size a ≤ S2000x128.size a
  h_S2000x128 : 0 < S2000x128.numel
  broadcasts_S1x384_S2000x384 : S1x384.Broadcasts S2000x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S2000x384_S2000x384_0_0 : ∀ a, (![0, 0] : Fin 2 → Nat) a + S2000x384.size a ≤ S2000x384.size a
  h_S2000x384 : 0 < S2000x384.numel
  slices_S320000x384_S320000x128_0_0 : S320000x384.Slices ![0, 0] S320000x128
  slices_S320000x384_S320000x128_0_128 : S320000x384.Slices ![0, 128] S320000x128
  slices_S320000x384_S320000x128_0_256 : S320000x384.Slices ![0, 256] S320000x128
  slices_S10000x384_S10000x128_0_0 : S10000x384.Slices ![0, 0] S10000x128
  slices_S10000x384_S10000x128_0_128 : S10000x384.Slices ![0, 128] S10000x128
  slices_S10000x384_S10000x128_0_256 : S10000x384.Slices ![0, 256] S10000x128
  slices_S2x320000_S1x320000_1_0 : S2x320000.Slices ![1, 0] S1x320000
  shapeCasts_S1x320000_S320000 : S1x320000.ShapeCasts S320000
  slices_S2x320000_S1x320000_0_0 : S2x320000.Slices ![0, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x128 : S_.BroadcastsInDim S10000x128 (![] : Fin 0 → Fin S10000x128.rank)
  bcast_S320000x3_S320000x3x1_0_1 : S320000x3.BroadcastsInDim S320000x3x1 (![0, 1] : Fin 2 → Fin S320000x3x1.rank)
  bcast_S320000x128_S320000x1x128_0_2 : S320000x128.BroadcastsInDim S320000x1x128 (![0, 2] : Fin 2 → Fin S320000x1x128.rank)
  bcast_S320000x3x1_S320000x3x128_0_1_2 : S320000x3x1.BroadcastsInDim S320000x3x128 (![0, 1, 2] : Fin 3 → Fin S320000x3x128.rank)
  bcast_S320000x1x128_S320000x3x128_0_1_2 : S320000x1x128.BroadcastsInDim S320000x3x128 (![0, 1, 2] : Fin 3 → Fin S320000x3x128.rank)
  bcast_S_S10000x3x128 : S_.BroadcastsInDim S10000x3x128 (![] : Fin 0 → Fin S10000x3x128.rank)
  dot_S6400x20_S20x128_S6400x128_1_0_0_1_n_n_wf : DotDims.WF S6400x20 S20x128 S6400x128 [1] [0] [0] [1] [] []
  dot_S6400x128_S128x384_S6400x384_1_0_0_1_n_n_wf : DotDims.WF S6400x128 S128x384 S6400x384 [1] [0] [0] [1] [] []
  dot_S2000x128_S128x384_S2000x384_1_0_0_1_n_n_wf : DotDims.WF S2000x128 S128x384 S2000x384 [1] [0] [0] [1] [] []
  dot_S2000x384_S384x384_S2000x384_1_0_0_1_n_n_wf : DotDims.WF S2000x384 S384x384 S2000x384 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  gather_S10000x3x128_S320000x1_S320000x3x128_12_0_n_n_0_1_13128_wf : GatherDims.WF S10000x3x128 S320000x1 S320000x3x128 [1, 2] [0] [] [0] [] 1 ![1, 3, 128]
  scatter_S10000x3x128_S320000x1_S320000x3x128_12_0_0_1_wf : ScatterDims.WF S10000x3x128 S320000x1 S320000x3x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x20.size a ≤ S320000x20.size a
  hwx0_0 : ∀ i : grid0.Coords, EltTy.bits .f32 = 32 ∨ (Rect.block (s := S320000x20) S6400x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S320000x1.size a
  hwx0_1 : ∀ i : grid0.Coords, EltTy.bits .f32 = 32 ∨ (Rect.block (s := S320000x1) S6400x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x128.size a ≤ S20x128.size a
  hwx0_2 : ∀ i : grid0.Coords, EltTy.bits .bf16 = 32 ∨ (Rect.block (s := S20x128) S20x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x384.size a ≤ S128x384.size a
  hwx0_4 : ∀ i : grid0.Coords, EltTy.bits .bf16 = 32 ∨ (Rect.block (s := S128x384) S128x384.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x384.size a ≤ S320000x384.size a
  hwx0_6 : ∀ i : grid0.Coords, EltTy.bits .f32 = 32 ∨ (Rect.block (s := S320000x384) S6400x384.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x384.size a ≤ S128x384.size a
  hwx1_1 : ∀ i : grid1.Coords, EltTy.bits .bf16 = 32 ∨ (Rect.block (s := S128x384) S128x384.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x384.size a ≤ S1x384.size a
  hwx1_2 : ∀ i : grid1.Coords, EltTy.bits .f32 = 32 ∨ (Rect.block (s := S1x384) S1x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x384.size a ≤ S384x384.size a
  hwx1_3 : ∀ i : grid1.Coords, EltTy.bits .bf16 = 32 ∨ (Rect.block (s := S384x384) S384x384.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x384.size a ≤ S10000x384.size a
  hwx1_5 : ∀ i : grid1.Coords, EltTy.bits .f32 = 32 ∨ (Rect.block (s := S10000x384) S2000x384.size (cc1_transform_5 i) (hinb1_5 i)).WholeWords (EltTy.packing .f32)

variable [Facts₀]

def dot_S6400x20_S20x128_S6400x128_1_0_0_1_n_n : DotDims S6400x20 S20x128 S6400x128 where
  lhsContracting := [1]
  rhsContracting := [0]
  lhsNonContracting := [0]
  rhsNonContracting := [1]
  lhsBatch := []
  rhsBatch := []
  wf := dot_S6400x20_S20x128_S6400x128_1_0_0_1_n_n_wf
def dot_S6400x128_S128x384_S6400x384_1_0_0_1_n_n : DotDims S6400x128 S128x384 S6400x384 where
  lhsContracting := [1]
  rhsContracting := [0]
  lhsNonContracting := [0]
  rhsNonContracting := [1]
  lhsBatch := []
  rhsBatch := []
  wf := dot_S6400x128_S128x384_S6400x384_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x384_S384x384_S2000x384_1_0_0_1_n_n : DotDims S2000x384 S384x384 S2000x384 where
  lhsContracting := [1]
  rhsContracting := [0]
  lhsNonContracting := [0]
  rhsNonContracting := [1]
  lhsBatch := []
  rhsBatch := []
  wf := dot_S2000x384_S384x384_S2000x384_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def gather_S10000x3x128_S320000x1_S320000x3x128_12_0_n_n_0_1_13128 : GatherDims S10000x3x128 S320000x1 S320000x3x128 where
  offsetDims := [1, 2]
  collapsedSliceDims := [0]
  operandBatchingDims := []
  startIndicesBatchingDims := []
  startIndexMap := [0]
  indexVectorDim := 1
  sliceSizes := ![1, 3, 128]
  wf := gather_S10000x3x128_S320000x1_S320000x3x128_12_0_n_n_0_1_13128_wf
def scatter_S10000x3x128_S320000x1_S320000x3x128_12_0_0_1 : ScatterDims S10000x3x128 S320000x1 S320000x3x128 where
  updateWindowDims := [1, 2]
  insertedWindowDims := [0]
  scatterDimsToOperandDims := [0]
  indexVectorDim := 1
  wf := scatter_S10000x3x128_S320000x1_S320000x3x128_12_0_0_1_wf

abbrev win0_0 : Pipeline.Window sig grid0 :=
  Pipeline.Window.ofSpec (Memref.whole main_arg3) S6400x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S20x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S6400x384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S128x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S384x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S2000x384.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x3x128 : Shape := ⟨3, ![10000, 3, 128]⟩
abbrev S2x320000 : Shape := ⟨2, ![2, 320000]⟩
abbrev S320000x20 : Shape := ⟨2, ![320000, 20]⟩
abbrev S320000x3 : Shape := ⟨2, ![320000, 3]⟩
abbrev S320000 : Shape := ⟨1, ![320000]⟩
abbrev S128x384 : Shape := ⟨2, ![128, 384]⟩
abbrev S384 : Shape := ⟨1, ![384]⟩
abbrev S384x384 : Shape := ⟨2, ![384, 384]⟩
abbrev S20x128 : Shape := ⟨2, ![20, 128]⟩
abbrev S128 : Shape := ⟨1, ![128]⟩
abbrev S1x320000 : Shape := ⟨2, ![1, 320000]⟩
abbrev S320000x128 : Shape := ⟨2, ![320000, 128]⟩
abbrev S1x128 : Shape := ⟨2, ![1, 128]⟩
abbrev S_ : Shape := ⟨0, ![]⟩
abbrev S320000x384 : Shape := ⟨2, ![320000, 384]⟩
abbrev S1x384 : Shape := ⟨2, ![1, 384]⟩
abbrev S320000x1 : Shape := ⟨2, ![320000, 1]⟩
abbrev S10000x384 : Shape := ⟨2, ![10000, 384]⟩
abbrev S320000x3x1 : Shape := ⟨3, ![320000, 3, 1]⟩
abbrev S320000x1x128 : Shape := ⟨3, ![320000, 1, 128]⟩
abbrev S320000x3x128 : Shape := ⟨3, ![320000, 3, 128]⟩

abbrev nBuf : Space → Nat
  | .hbm => 119
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x3x128, .f32⟩
  | .hbm, ⟨2, _⟩ => ⟨S2x320000, .i32⟩
  | .hbm, ⟨3, _⟩ => ⟨S320000x20, .f32⟩
  | .hbm, ⟨4, _⟩ => ⟨S320000x3, .f32⟩
  | .hbm, ⟨5, _⟩ => ⟨S320000, .f32⟩
  | .hbm, ⟨6, _⟩ => ⟨S128x384, .f32⟩
  | .hbm, ⟨7, _⟩ => ⟨S384, .f32⟩
  | .hbm, ⟨8, _⟩ => ⟨S384x384, .f32⟩
  | .hbm, ⟨9, _⟩ => ⟨S384, .f32⟩
  | .hbm, ⟨10, _⟩ => ⟨S20x128, .f32⟩
  | .hbm, ⟨11, _⟩ => ⟨S128, .f32⟩
  | .hbm, ⟨12, _⟩ => ⟨S128x384, .f32⟩
  | .hbm, ⟨13, _⟩ => ⟨S384, .f32⟩
  | .hbm, ⟨14, _⟩ => ⟨S1x320000, .i32⟩
  | .hbm, ⟨15, _⟩ => ⟨S320000, .i32⟩
  | .hbm, ⟨16, _⟩ => ⟨S1x320000, .i32⟩
  | .hbm, ⟨17, _⟩ => ⟨S320000, .i32⟩
  | .hbm, ⟨18, _⟩ => ⟨S320000x128, .f32⟩
  | .hbm, ⟨19, _⟩ => ⟨S1x128, .f32⟩
  | .hbm, ⟨20, _⟩ => ⟨S320000x128, .f32⟩
  | .hbm, ⟨21, _⟩ => ⟨S320000x128, .f32⟩
  | .hbm, ⟨22, _⟩ => ⟨S320000x128, .f32⟩
  | .hbm, ⟨23, _⟩ => ⟨S320000x128, .f32⟩
  | .hbm, ⟨24, _⟩ => ⟨S_, .f32⟩
  | .hbm, ⟨25, _⟩ => ⟨S320000x128, .f32⟩
  | .hbm, ⟨26, _⟩ => ⟨S320000x128, .f32⟩
  | .hbm, ⟨27, _⟩ => ⟨S_, .f32⟩
  | .hbm, ⟨28, _⟩ => ⟨S320000x128, .f32⟩
  | .hbm, ⟨29, _⟩ => ⟨S320000x128, .f32⟩
  | .hbm, ⟨30, _⟩ => ⟨S320000x128, .f32⟩
  | .hbm, ⟨31, _⟩ => ⟨S320000x384, .f32⟩
  | .hbm, ⟨32, _⟩ => ⟨S1x384, .f32⟩
  | .hbm, ⟨33, _⟩ => ⟨S320000x384, .f32⟩
  | .hbm, ⟨34, _⟩ => ⟨S320000x384, .f32⟩
  | .hbm, ⟨35, _⟩ => ⟨S320000x1, .f32⟩
  | .hbm, ⟨36, _⟩ => ⟨S320000x384, .f32⟩
  | .hbm, ⟨37, _⟩ => ⟨S320000x384, .f32⟩
  | .hbm, ⟨38, _⟩ => ⟨S320000x128, .f32⟩
  | .hbm, ⟨39, _⟩ => ⟨S320000x128, .f32⟩
  | .hbm, ⟨40, _⟩ => ⟨S320000x128, .f32⟩
  | .hbm, ⟨41, _⟩ => ⟨S10000x384, .f32⟩
  | .hbm, ⟨42, _⟩ => ⟨S1x384, .f32⟩
  | .hbm, ⟨43, _⟩ => ⟨S10000x384, .f32⟩
  | .hbm, ⟨44, _⟩ => ⟨S10000x384, .f32⟩
  | .hbm, ⟨45, _⟩ => ⟨S10000x384, .f32⟩
  | .hbm, ⟨46, _⟩ => ⟨S10000x384, .f32⟩
  | .hbm, ⟨47, _⟩ => ⟨S_, .f32⟩
  | .hbm, ⟨48, _⟩ => ⟨S10000x384, .f32⟩
  | .hbm, ⟨49, _⟩ => ⟨S10000x384, .f32⟩
  | .hbm, ⟨50, _⟩ => ⟨S_, .f32⟩
  | .hbm, ⟨51, _⟩ => ⟨S10000x384, .f32⟩
  | .hbm, ⟨52, _⟩ => ⟨S10000x384, .f32⟩
  | .hbm, ⟨53, _⟩ => ⟨S10000x384, .f32⟩
  | .hbm, ⟨54, _⟩ => ⟨S10000x384, .f32⟩
  | .hbm, ⟨55, _⟩ => ⟨S1x384, .f32⟩
  | .hbm, ⟨56, _⟩ => ⟨S10000x384, .f32⟩
  | .hbm, ⟨57, _⟩ => ⟨S10000x384, .f32⟩
  | .hbm, ⟨58, _⟩ => ⟨S10000x128, .f32⟩
  | .hbm, ⟨59, _⟩ => ⟨S10000x128, .f32⟩
  | .hbm, ⟨60, _⟩ => ⟨S10000x128, .f32⟩
  | .hbm, ⟨61, _⟩ => ⟨S_, .i32⟩
  | .hbm, ⟨62, _⟩ => ⟨S320000, .i32⟩
  | .hbm, ⟨63, _⟩ => ⟨S320000, .i1⟩
  | .hbm, ⟨64, _⟩ => ⟨S_, .i32⟩
  | .hbm, ⟨65, _⟩ => ⟨S320000, .i32⟩
  | .hbm, ⟨66, _⟩ => ⟨S320000, .i32⟩
  | .hbm, ⟨67, _⟩ => ⟨S320000, .i32⟩
  | .hbm, ⟨68, _⟩ => ⟨S320000x1, .i32⟩
  | .hbm, ⟨69, _⟩ => ⟨S320000x128, .f32⟩
  | .hbm, ⟨70, _⟩ => ⟨S320000x128, .f32⟩
  | .hbm, ⟨71, _⟩ => ⟨S_, .f32⟩
  | .hbm, ⟨72, _⟩ => ⟨S10000x128, .f32⟩
  | .hbm, ⟨73, _⟩ => ⟨S320000x1, .i32⟩
  | .hbm, ⟨74, _⟩ => ⟨S10000x128, .f32⟩
  | .hbm, ⟨75, _⟩ => ⟨S_, .i32⟩
  | .hbm, ⟨76, _⟩ => ⟨S320000, .i32⟩
  | .hbm, ⟨77, _⟩ => ⟨S320000, .i1⟩
  | .hbm, ⟨78, _⟩ => ⟨S_, .i32⟩
  | .hbm, ⟨79, _⟩ => ⟨S320000, .i32⟩
  | .hbm, ⟨80, _⟩ => ⟨S320000, .i32⟩
  | .hbm, ⟨81, _⟩ => ⟨S320000, .i32⟩
  | .hbm, ⟨82, _⟩ => ⟨S320000x1, .i32⟩
  | .hbm, ⟨83, _⟩ => ⟨S320000x128, .f32⟩
  | .hbm, ⟨84, _⟩ => ⟨S320000x128, .f32⟩
  | .hbm, ⟨85, _⟩ => ⟨S_, .i32⟩
  | .hbm, ⟨86, _⟩ => ⟨S320000, .i32⟩
  | .hbm, ⟨87, _⟩ => ⟨S320000, .i1⟩
  | .hbm, ⟨88, _⟩ => ⟨S_, .i32⟩
  | .hbm, ⟨89, _⟩ => ⟨S320000, .i32⟩
  | .hbm, ⟨90, _⟩ => ⟨S320000, .i32⟩
  | .hbm, ⟨91, _⟩ => ⟨S320000, .i32⟩
  | .hbm, ⟨92, _⟩ => ⟨S320000x1, .i32⟩
  | .hbm, ⟨93, _⟩ => ⟨S320000x128, .f32⟩
  | .hbm, ⟨94, _⟩ => ⟨S320000x128, .f32⟩
  | .hbm, ⟨95, _⟩ => ⟨S320000x3x1, .f32⟩
  | .hbm, ⟨96, _⟩ => ⟨S320000x1x128, .f32⟩
  | .hbm, ⟨97, _⟩ => ⟨S320000x3x128, .f32⟩
  | .hbm, ⟨98, _⟩ => ⟨S320000x3x128, .f32⟩
  | .hbm, ⟨99, _⟩ => ⟨S320000x3x128, .f32⟩
  | .hbm, ⟨100, _⟩ => ⟨S_, .i32⟩
  | .hbm, ⟨101, _⟩ => ⟨S320000, .i32⟩
  | .hbm, ⟨102, _⟩ => ⟨S320000, .i1⟩
  | .hbm, ⟨103, _⟩ => ⟨S_, .i32⟩
  | .hbm, ⟨104, _⟩ => ⟨S320000, .i32⟩
  | .hbm, ⟨105, _⟩ => ⟨S320000, .i32⟩
  | .hbm, ⟨106, _⟩ => ⟨S320000, .i32⟩
  | .hbm, ⟨107, _⟩ => ⟨S320000x1, .i32⟩
  | .hbm, ⟨108, _⟩ => ⟨S320000x3x128, .f32⟩
  | .hbm, ⟨109, _⟩ => ⟨S320000x1x128, .f32⟩
  | .hbm, ⟨110, _⟩ => ⟨S320000x3x128, .f32⟩
  | .hbm, ⟨111, _⟩ => ⟨S320000x3x128, .f32⟩
  | .hbm, ⟨112, _⟩ => ⟨S320000x3x128, .f32⟩
  | .hbm, ⟨113, _⟩ => ⟨S_, .f32⟩
  | .hbm, ⟨114, _⟩ => ⟨S10000x3x128, .f32⟩
  | .hbm, ⟨115, _⟩ => ⟨S320000x1, .i32⟩
  | .hbm, ⟨116, _⟩ => ⟨S10000x3x128, .f32⟩
  | .hbm, ⟨117, _⟩ => ⟨S10000x128, .f32⟩
  | .hbm, ⟨118, _⟩ => ⟨S10000x3x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c : Ref sig .tc := ⟨.hbm, 61, rfl⟩
abbrev main_v31 : Ref sig .tc := ⟨.hbm, 62, rfl⟩
abbrev main_v32 : Ref sig .tc := ⟨.hbm, 63, rfl⟩
abbrev main_c_0 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_1 : Ref sig .tc := ⟨.hbm, 75, rfl⟩
abbrev main_v42 : Ref sig .tc := ⟨.hbm, 76, rfl⟩
abbrev main_v43 : Ref sig .tc := ⟨.hbm, 77, rfl⟩
abbrev main_c_2 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_3 : Ref sig .tc := ⟨.hbm, 85, rfl⟩
abbrev main_v50 : Ref sig .tc := ⟨.hbm, 86, rfl⟩
abbrev main_v51 : Ref sig .tc := ⟨.hbm, 87, rfl⟩
abbrev main_c_4 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_5 : Ref sig .tc := ⟨.hbm, 100, rfl⟩
abbrev main_v63 : Ref sig .tc := ⟨.hbm, 101, rfl⟩
abbrev main_v64 : Ref sig .tc := ⟨.hbm, 102, rfl⟩
abbrev main_c_6 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_7 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩

abbrev nD : Nat := 1
abbrev τ : Topo := Topo.v7x

variable {F : FTy → Type} [FloatOps F]

class Facts₀ : Prop where
  slices_S2x320000_S1x320000_1_0 : S2x320000.Slices ![1, 0] S1x320000
  shapeCasts_S1x320000_S320000 : S1x320000.ShapeCasts S320000
  slices_S2x320000_S1x320000_0_0 : S2x320000.Slices ![0, 0] S1x320000
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S384_S1x384_1 : S384.BroadcastsInDim S1x384 (![1] : Fin 1 → Fin S1x384.rank)
  bcast_S1x384_S320000x384_0_1 : S1x384.BroadcastsInDim S320000x384 (![0, 1] : Fin 2 → Fin S320000x384.rank)
  bcast_S320000_S320000x1_0 : S320000.BroadcastsInDim S320000x1 (![0] : Fin 1 → Fin S320000x1.rank)
  bcast_S320000x1_S320000x384_0_1 : S320000x1.BroadcastsInDim S320000x384 (![0, 1] : Fin 2 → Fin S320000x384.rank)
  slices_S320000x384_S320000x128_0_0 : S320000x384.Slices ![0, 0] S320000x128
  slices_S320000x384_S320000x128_0_128 : S320000x384.Slices ![0, 128] S320000x128
  slices_S320000x384_S320000x128_0_256 : S320000x384.Slices ![0, 256] S320000x128
  bcast_S1x384_S10000x384_0_1 : S1x384.BroadcastsInDim S10000x384 (![0, 1] : Fin 2 → Fin S10000x384.rank)
  bcast_S_S10000x384 : S_.BroadcastsInDim S10000x384 (![] : Fin 0 → Fin S10000x384.rank)
  slices_S10000x384_S10000x128_0_0 : S10000x384.Slices ![0, 0] S10000x128
  slices_S10000x384_S10000x128_0_128 : S10000x384.Slices ![0, 128] S10000x128
  slices_S10000x384_S10000x128_0_256 : S10000x384.Slices ![0, 256] S10000x128
  bcast_S_S320000 : S_.BroadcastsInDim S320000 (![] : Fin 0 → Fin S320000.rank)
  bcast_S_S10000x128 : S_.BroadcastsInDim S10000x128 (![] : Fin 0 → Fin S10000x128.rank)
  bcast_S320000x3_S320000x3x1_0_1 : S320000x3.BroadcastsInDim S320000x3x1 (![0, 1] : Fin 2 → Fin S320000x3x1.rank)
  bcast_S320000x128_S320000x1x128_0_2 : S320000x128.BroadcastsInDim S320000x1x128 (![0, 2] : Fin 2 → Fin S320000x1x128.rank)
  bcast_S320000x3x1_S320000x3x128_0_1_2 : S320000x3x1.BroadcastsInDim S320000x3x128 (![0, 1, 2] : Fin 3 → Fin S320000x3x128.rank)
  bcast_S320000x1x128_S320000x3x128_0_1_2 : S320000x1x128.BroadcastsInDim S320000x3x128 (![0, 1, 2] : Fin 3 → Fin S320000x3x128.rank)
  bcast_S_S10000x3x128 : S_.BroadcastsInDim S10000x3x128 (![] : Fin 0 → Fin S10000x3x128.rank)
  dot_S320000x20_S20x128_S320000x128_1_0_0_1_n_n_wf : DotDims.WF S320000x20 S20x128 S320000x128 [1] [0] [0] [1] [] []
  dot_S320000x128_S128x384_S320000x384_1_0_0_1_n_n_wf : DotDims.WF S320000x128 S128x384 S320000x384 [1] [0] [0] [1] [] []
  dot_S10000x128_S128x384_S10000x384_1_0_0_1_n_n_wf : DotDims.WF S10000x128 S128x384 S10000x384 [1] [0] [0] [1] [] []
  dot_S10000x384_S384x384_S10000x384_1_0_0_1_n_n_wf : DotDims.WF S10000x384 S384x384 S10000x384 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  gather_S10000x3x128_S320000x1_S320000x3x128_12_0_n_n_0_1_13128_wf : GatherDims.WF S10000x3x128 S320000x1 S320000x3x128 [1, 2] [0] [] [0] [] 1 ![1, 3, 128]
  scatter_S10000x3x128_S320000x1_S320000x3x128_12_0_0_1_wf : ScatterDims.WF S10000x3x128 S320000x1 S320000x3x128 [1, 2] [0] [0] 1

variable [Facts₀]

def dot_S320000x20_S20x128_S320000x128_1_0_0_1_n_n : DotDims S320000x20 S20x128 S320000x128 where
  lhsContracting := [1]
  rhsContracting := [0]
  lhsNonContracting := [0]
  rhsNonContracting := [1]
  lhsBatch := []
  rhsBatch := []
  wf := dot_S320000x20_S20x128_S320000x128_1_0_0_1_n_n_wf
def dot_S320000x128_S128x384_S320000x384_1_0_0_1_n_n : DotDims S320000x128 S128x384 S320000x384 where
  lhsContracting := [1]
  rhsContracting := [0]
  lhsNonContracting := [0]
  rhsNonContracting := [1]
  lhsBatch := []
  rhsBatch := []
  wf := dot_S320000x128_S128x384_S320000x384_1_0_0_1_n_n_wf
def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def dot_S10000x384_S384x384_S10000x384_1_0_0_1_n_n : DotDims S10000x384 S384x384 S10000x384 where
  lhsContracting := [1]
  rhsContracting := [0]
  lhsNonContracting := [0]
  rhsNonContracting := [1]
  lhsBatch := []
  rhsBatch := []
  wf := dot_S10000x384_S384x384_S10000x384_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def gather_S10000x3x128_S320000x1_S320000x3x128_12_0_n_n_0_1_13128 : GatherDims S10000x3x128 S320000x1 S320000x3x128 where
  offsetDims := [1, 2]
  collapsedSliceDims := [0]
  operandBatchingDims := []
  startIndicesBatchingDims := []
  startIndexMap := [0]
  indexVectorDim := 1
  sliceSizes := ![1, 3, 128]
  wf := gather_S10000x3x128_S320000x1_S320000x3x128_12_0_n_n_0_1_13128_wf
def scatter_S10000x3x128_S320000x1_S320000x3x128_12_0_0_1 : ScatterDims S10000x3x128 S320000x1 S320000x3x128 where
  updateWindowDims := [1, 2]
  insertedWindowDims := [0]
  scatterDimsToOperandDims := [0]
  indexVectorDim := 1
  wf := scatter_S10000x3x128_S320000x1_S320000x3x128_12_0_0_1_wf

class Facts : Prop extends Facts₀ where

variable [Facts]
-- ==== Proof.KernelRun.lean ====
/-
  The kernel program's run, with its results named.

  @main is a stretch of host operations, the filter network's grid, a second stretch, the node network's grid, and a
  last stretch (the gathers, products and segment sums). The buffer contents at each boundary are a fold from the launch
  memory: a stretch applies its operations, a grid leaves each of its output arrays at what its write-backs folded and
  every other buffer as it found it. Every weakly fair execution terminates without a fault in a state whose every
  unscoped buffer holds the last boundary's contents; in particular the two result buffers hold the last stretch's
  values at that boundary, and the argument arrays hold what they were launched with.
-/
import proofs.«119322_j62663572848821_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    contents the fold through @main's five segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The run with the two results and the arguments read off: each result buffer at the last stretch's value, each
    argument as launched. -/
theorem run_named : θ_run defs (onTc (τ := τ) (main (F := F))) ⟨m, fun _ => 0, ρ⟩ (fun r => ∀ c : Dev nD,
      r.2.mem ((c.tc : Thread nD τ).loc main_v67) = W5 m ρ c (Proc.devRef .tc main_v67)
      ∧ r.2.mem ((c.tc : Thread nD τ).loc main_v68) = W5 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v67 (by decide)),
     h c _ (mem_uc main_v68 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c)⟩)
    (run_all m ρ)

end Cert.KernelIdeal.Named

end
-- ==== Proof.Spec.lean ====
/-
  The whole-array functions of one message-passing step.

  Two dense two-layer networks come first. On the E × R radial features, row by row,
      filters = (silu (rbf · Wf1 + bf1) · Wf2 + bf2) * cutoff,
  an E × 3H array, row e scaled by the e-th cutoff value; on the N × H node features
      x = silu (q · W1 + b1) · W2 + b2,
  an N × 3H array. Here silu h = h * (1 / (1 + e^(-h))), entry by entry, and a bias of C entries is added to every row.

  The rest only moves and combines entries. With src and dst the two rows of the edge list (a negative source index
  wrapped once by the node count), and the three column thirds of x and of filters written x_q, x_r, x_mu and
  f_q, f_r, f_mu:
      scalar (n, :)    = q (n, :)     + the sum over the edges e with dst e = n of  x_q (src e, :) * f_q (e, :)
      vector (n, k, :) = mu (n, k, :) + the sum over those edges of
                           u (e, k) * (x_r (src e, :) * f_r (e, :)) + mu (src e, k, :) * (x_mu (src e, :) * f_mu (e, :)).
  Both programs compute this last part by the same operations in the same order, so it is kept as one function of
  (filters, x) and the arguments, and is never opened.
-/
import proofs.«119322_j62663572848821_1_alg».proof.Proof.Gen.ReferenceIdeal
import Idealize.ShloMosaic.PureOps.Ideal.Laws

noncomputable section

namespace Cert.Msg

open Idealize.ShloMosaic Cert.ReferenceIdeal Cert.ReferenceIdeal.Facts₀

/-- The E × H hidden layer of the filter network before its activation: rbf · Wf1 + bf1. -/
def filterHidden (rbf : FVec Ideal S320000x20 .f32) (wf1 : FVec Ideal S20x128 .f32)
    (bf1 : FVec Ideal S128 .f32) : FVec Ideal S320000x128 .f32 :=
  addf (Host.dotGeneral dot_S320000x20_S20x128_S320000x128_1_0_0_1_n_n none rbf wf1)
    (broadcastInDim S320000x128 ![0, 1] bcast_S1x128_S320000x128_0_1 (broadcastInDim S1x128 ![1] bcast_S128_S1x128_1 bf1))

/-- silu on an E × H array: h * (1 / (1 + e^(-h))). -/
def siluE (h : FVec Ideal S320000x128 .f32) : FVec Ideal S320000x128 .f32 :=
  mulf h (Host.divf (broadcastInDim S320000x128 ![] bcast_S_S320000x128 (constant S_ .f32 0x3F800000#32))
    (addf (broadcastInDim S320000x128 ![] bcast_S_S320000x128 (constant S_ .f32 0x3F800000#32)) (Host.exp (Host.negf h))))

/-- The filters: (silu (rbf · Wf1 + bf1) · Wf2 + bf2), row e scaled by cutoff e. -/
def filters (rbf : FVec Ideal S320000x20 .f32) (cut : FVec Ideal S320000 .f32)
    (wf1 : FVec Ideal S20x128 .f32) (bf1 : FVec Ideal S128 .f32)
    (wf2 : FVec Ideal S128x384 .f32) (bf2 : FVec Ideal S384 .f32) :
    FVec Ideal S320000x384 .f32 :=
  mulf (addf (Host.dotGeneral dot_S320000x128_S128x384_S320000x384_1_0_0_1_n_n none (siluE (filterHidden rbf wf1 bf1)) wf2)
      (broadcastInDim S320000x384 ![0, 1] bcast_S1x384_S320000x384_0_1 (broadcastInDim S1x384 ![1] bcast_S384_S1x384_1 bf2)))
    (broadcastInDim S320000x384 ![0, 1] bcast_S320000x1_S320000x384_0_1 (broadcastInDim S320000x1 ![0] bcast_S320000_S320000x1_0 cut))

/-- The N × 3H hidden layer of the node network before its activation: q · W1 + b1. -/
def nodeHidden (q : FVec Ideal S10000x128 .f32) (w1 : FVec Ideal S128x384 .f32)
    (b1 : FVec Ideal S384 .f32) : FVec Ideal S10000x384 .f32 :=
  addf (Host.dotGeneral dot_S10000x128_S128x384_S10000x384_1_0_0_1_n_n none q w1)
    (broadcastInDim S10000x384 ![0, 1] bcast_S1x384_S10000x384_0_1 (broadcastInDim S1x384 ![1] bcast_S384_S1x384_1 b1))

/-- silu on an N × 3H array. -/
def siluN (h : FVec Ideal S10000x384 .f32) : FVec Ideal S10000x384 .f32 :=
  mulf h (Host.divf (broadcastInDim S10000x384 ![] bcast_S_S10000x384 (constant S_ .f32 0x3F800000#32))
    (addf (broadcastInDim S10000x384 ![] bcast_S_S10000x384 (constant S_ .f32 0x3F800000#32)) (Host.exp (Host.negf h))))

/-- The node network: silu (q · W1 + b1) · W2 + b2. -/
def nodes (q : FVec Ideal S10000x128 .f32) (w1 : FVec Ideal S128x384 .f32)
    (b1 : FVec Ideal S384 .f32) (w2 : FVec Ideal S384x384 .f32)
    (b2 : FVec Ideal S384 .f32) : FVec Ideal S10000x384 .f32 :=
  addf (Host.dotGeneral dot_S10000x384_S384x384_S10000x384_1_0_0_1_n_n none (siluN (nodeHidden q w1 b1)) w2)
    (broadcastInDim S10000x384 ![0, 1] bcast_S1x384_S10000x384_0_1 (broadcastInDim S1x384 ![1] bcast_S384_S1x384_1 b2))

/-- Row r of the 2 × E edge list, as E integers. -/
def edgeRow (r : Nat) (h : S2x320000.Slices ![r, 0] S1x320000) (ei : IVec S2x320000 32) :
    IVec S320000 32 :=
  shapeCast S320000 (extractStridedSlice S1x320000 ![r, 0] ei h) shapeCasts_S1x320000_S320000

/-- The source node of each edge as an E × 1 column of gather indices: a negative index is moved up by the node count. -/
def srcCol (ei : IVec S2x320000 32) : IVec S320000x1 32 :=
  broadcastInDim S320000x1 ![0] bcast_S320000_S320000x1_0
    (select (cmpi .slt (edgeRow 1 slices_S2x320000_S1x320000_1_0 ei) (broadcastInDim S320000 ![] bcast_S_S320000 (constantI S_ 32 0#32)))
      (addi (edgeRow 1 slices_S2x320000_S1x320000_1_0 ei) (broadcastInDim S320000 ![] bcast_S_S320000 (constantI S_ 32 10000#32)))
      (edgeRow 1 slices_S2x320000_S1x320000_1_0 ei))

/-- The target node of each edge as an E × 1 column of scatter indices. -/
def dstCol (ei : IVec S2x320000 32) : IVec S320000x1 32 :=
  broadcastInDim S320000x1 ![0] bcast_S320000_S320000x1_0 (edgeRow 0 slices_S2x320000_S1x320000_0_0 ei)

/-- Columns [o, o + H) of x gathered at each edge's source, times the same columns of that edge's filter row. -/
def edgeMsg (o : Nat) (hx : S10000x384.Slices ![0, o] S10000x128) (hf : S320000x384.Slices ![0, o] S320000x128)
    (f : FVec Ideal S320000x384 .f32) (x : FVec Ideal S10000x384 .f32)
    (ei : IVec S2x320000 32) : FVec Ideal S320000x128 .f32 :=
  mulf (Host.gather gather_S10000x128_S320000x1_S320000x128_1_0_n_n_0_1_1128 (extractStridedSlice S10000x128 ![0, o] x hx) (srcCol ei))
    (extractStridedSlice S320000x128 ![0, o] f hf)

/-- The scalar output: q plus, at each node, the sum of the scalar messages of the edges that end there. -/
def scalarOut (f : FVec Ideal S320000x384 .f32) (x : FVec Ideal S10000x384 .f32)
    (q : FVec Ideal S10000x128 .f32) (ei : IVec S2x320000 32) :
    FVec Ideal S10000x128 .f32 :=
  addf q (Host.scatterAdd scatter_S10000x128_S320000x1_S320000x128_1_0_0_1
    (broadcastInDim S10000x128 ![] bcast_S_S10000x128 (constant S_ .f32 0x00000000#32)) (dstCol ei)
    (edgeMsg 0 slices_S10000x384_S10000x128_0_0 slices_S320000x384_S320000x128_0_0 f x ei))

/-- An E × H array repeated along a new middle axis of extent 3. -/
def rep3 (v : FVec Ideal S320000x128 .f32) : FVec Ideal S320000x3x128 .f32 :=
  broadcastInDim S320000x3x128 ![0, 1, 2] bcast_S320000x1x128_S320000x3x128_0_1_2
    (broadcastInDim S320000x1x128 ![0, 2] bcast_S320000x128_S320000x1x128_0_2 v)

/-- The vector output: mu plus, at each node, the sum of the vector messages of the edges that end there. -/
def vectorOut (f : FVec Ideal S320000x384 .f32) (x : FVec Ideal S10000x384 .f32)
    (mu : FVec Ideal S10000x3x128 .f32) (ei : IVec S2x320000 32)
    (uv : FVec Ideal S320000x3 .f32) : FVec Ideal S10000x3x128 .f32 :=
  addf mu (Host.scatterAdd scatter_S10000x3x128_S320000x1_S320000x3x128_12_0_0_1
    (broadcastInDim S10000x3x128 ![] bcast_S_S10000x3x128 (constant S_ .f32 0x00000000#32)) (dstCol ei)
    (addf
      (mulf (broadcastInDim S320000x3x128 ![0, 1, 2] bcast_S320000x3x1_S320000x3x128_0_1_2
              (broadcastInDim S320000x3x1 ![0, 1] bcast_S320000x3_S320000x3x1_0_1 uv))
            (rep3 (edgeMsg 128 slices_S10000x384_S10000x128_0_128 slices_S320000x384_S320000x128_0_128 f x ei)))
      (mulf (Host.gather gather_S10000x3x128_S320000x1_S320000x3x128_12_0_n_n_0_1_13128 mu (srcCol ei))
            (rep3 (edgeMsg 256 slices_S10000x384_S10000x128_0_256 slices_S320000x384_S320000x128_0_256 f x ei)))))

end Cert.Msg

end
-- ==== Proof.KernelTail.lean ====
/-
  The kernel program's last stretch of host operations, read as one function.

  After the two grids, @main slices the filters and the node network's output into their three column thirds, gathers
  the node rows at each edge's source, multiplies, and sums the edge messages into the nodes with a scatter-add. At the
  last boundary the two result buffers therefore hold the scalar and the vector output of the specification, taken at
  what the two grids left in their output arrays and at the argument arrays, which nothing wrote.
-/
import proofs.«119322_j62663572848821_1_alg».proof.Proof.Gen.KernelIdeal.Frame
import proofs.«119322_j62663572848821_1_alg».proof.Proof.Spec

set_option maxRecDepth 16384

noncomputable section

namespace Cert.KernelIdeal.Named

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- "No operation of this stretch writes the buffer": each operation writes its one result buffer, another one. -/
local macro "no_write" ops:ident : tactic => `(tactic| (
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- A buffer that no operation of the last stretch writes holds, after it, what it held before. -/
theorem tail_keeps (c : Dev nD) (b : Ref sig .tc)
    (hb : (hostOps2 : List (HloOp τ sig (Elt Ideal))).Forall fun op => Proc.devRef .tc b ∉ op.writes) :
    W5 m ρ c (Proc.devRef .tc b) = W4 m ρ c (Proc.devRef .tc b) :=
  StableHlo.after_of_forall_not_mem (b := Proc.devRef .tc b) _ _ (List.forall_iff_forall_mem.mp hb)

/-- Before the last stretch the node features are as launched. -/
theorem W4_arg0 (c : Dev nD) : W4 m ρ c (Proc.devRef .tc main_arg0) = m ((c : Thread nD τ).loc main_arg0) :=
  (tail_keeps m ρ c main_arg0 (by no_write hostOps2)).symm.trans (W5_main_arg0 m ρ c)
/-- … and the vector features, -/
theorem W4_arg1 (c : Dev nD) : W4 m ρ c (Proc.devRef .tc main_arg1) = m ((c : Thread nD τ).loc main_arg1) :=
  (tail_keeps m ρ c main_arg1 (by no_write hostOps2)).symm.trans (W5_main_arg1 m ρ c)
/-- the edge list, -/
theorem W4_arg2 (c : Dev nD) : W4 m ρ c (Proc.devRef .tc main_arg2) = m ((c : Thread nD τ).loc main_arg2) :=
  (tail_keeps m ρ c main_arg2 (by no_write hostOps2)).symm.trans (W5_main_arg2 m ρ c)
/-- and the unit vectors. -/
theorem W4_arg4 (c : Dev nD) : W4 m ρ c (Proc.devRef .tc main_arg4) = m ((c : Thread nD τ).loc main_arg4) :=
  (tail_keeps m ρ c main_arg4 (by no_write hostOps2)).symm.trans (W5_main_arg4 m ρ c)

/-- Before the last stretch the filters' buffer holds what the first grid's write-backs left: the second stretch and the
    second grid do not touch it. -/
theorem W4_v5 (c : Dev nD) : W4 m ρ c (Proc.devRef .tc main_v5) = (dat0 (V1 m ρ) c).arrAt 6 cfg0.N :=
  (W4_of_ne m ρ c main_v5 (by decide)).trans
    ((StableHlo.after_of_forall_not_mem (b := Proc.devRef .tc main_v5) _ _
        (List.forall_iff_forall_mem.mp (by no_write hostOps1))).trans (W2_arr m ρ c 6))

/-- … and the node network's buffer what the second grid's write-backs left. -/
theorem W4_v10 (c : Dev nD) : W4 m ρ c (Proc.devRef .tc main_v10) = (dat1 (V3 m ρ) c).arrAt 5 cfg1.N :=
  W4_arr m ρ c 5

set_option maxHeartbeats 16000000 in
/-- The first result buffer after the last stretch: the scalar output at the buffers' contents before it. -/
theorem scalar_at_W4 (c : Dev nD) : W5 m ρ c (Proc.devRef .tc main_v67)
    = Cert.Msg.scalarOut (W4 m ρ c (Proc.devRef .tc main_v5)) (W4 m ρ c (Proc.devRef .tc main_v10))
        (W4 m ρ c (Proc.devRef .tc main_arg0)) (W4 m ρ c (Proc.devRef .tc main_arg2)) := by
  show StableHlo.after hostOps2 (W4 m ρ c) (Proc.devRef .tc main_v67) = _
  after_results_simp
  rfl

set_option maxHeartbeats 16000000 in
/-- The second result buffer after the last stretch: the vector output at the buffers' contents before it. -/
theorem vector_at_W4 (c : Dev nD) : W5 m ρ c (Proc.devRef .tc main_v68)
    = Cert.Msg.vectorOut (W4 m ρ c (Proc.devRef .tc main_v5)) (W4 m ρ c (Proc.devRef .tc main_v10))
        (W4 m ρ c (Proc.devRef .tc main_arg1)) (W4 m ρ c (Proc.devRef .tc main_arg2)) (W4 m ρ c (Proc.devRef .tc main_arg4)) := by
  show StableHlo.after hostOps2 (W4 m ρ c) (Proc.devRef .tc main_v68) = _
  after_results_simp
  rfl

/-- The scalar result, at what the two grids left and at the arguments. -/
theorem scalar_result (c : Dev nD) : W5 m ρ c (Proc.devRef .tc main_v67)
    = Cert.Msg.scalarOut ((dat0 (V1 m ρ) c).arrAt 6 cfg0.N) ((dat1 (V3 m ρ) c).arrAt 5 cfg1.N)
        (m ((c : Thread nD τ).loc main_arg0)) (m ((c : Thread nD τ).loc main_arg2)) := by
  have e := scalar_at_W4 m ρ c
  rw [W4_v5 m ρ c, W4_v10 m ρ c, W4_arg0 m ρ c, W4_arg2 m ρ c] at e
  exact e

/-- The vector result, at what the two grids left and at the arguments. -/
theorem vector_result (c : Dev nD) : W5 m ρ c (Proc.devRef .tc main_v68)
    = Cert.Msg.vectorOut ((dat0 (V1 m ρ) c).arrAt 6 cfg0.N) ((dat1 (V3 m ρ) c).arrAt 5 cfg1.N)
        (m ((c : Thread nD τ).loc main_arg1)) (m ((c : Thread nD τ).loc main_arg2)) (m ((c : Thread nD τ).loc main_arg4)) := by
  have e := vector_at_W4 m ρ c
  rw [W4_v5 m ρ c, W4_v10 m ρ c, W4_arg1 m ρ c, W4_arg2 m ρ c, W4_arg4 m ρ c] at e
  exact e

end Cert.KernelIdeal.Named

end
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.LibTileMore.lean ====
/-
  More row tiles. With `IsTile r0 hr x X` (the T × C array x is rows [r0, r0 + T) of the M × C array X), three further
  operations keep the relation: a T × 1 column repeated across C columns; the sum along each row, kept as a T × 1
  column; and a cast to the same shape. A 1 × 1 value repeated down a T × 1 column is the case C = 1 of a 1 × C row
  repeated down the rows. The side conditions of the whole arrays' broadcasts hold at every row count, and are proved
  here once.
-/
import proofs.«119322_j62663572848821_1_alg».proof.Proof.LibTile

noncomputable section

namespace Cert.Tile

open Idealize.ShloMosaic Idealize.ShloMosaic.ValueIdx

/-- The axis map (0, 1) of a rank-2 broadcast is injective. -/
theorem inj01 : Function.Injective (![0, 1] : Fin 2 → Fin 2) := by decide

/-- A 1 × C row broadcasts along (0, 1) to M × C, at every M and C. -/
theorem bidRow (M C : Nat) : (⟨2, ![1, C]⟩ : Shape).BroadcastsInDim ⟨2, ![M, C]⟩ ![0, 1] := by
  refine ⟨inj01, fun a => ?_⟩
  match a with
  | ⟨0, _⟩ => exact Or.inl rfl
  | ⟨1, _⟩ => exact Or.inr rfl

/-- An M × 1 column broadcasts along (0, 1) to M × C, at every M and C. -/
theorem bidCol (M C : Nat) : (⟨2, ![M, 1]⟩ : Shape).BroadcastsInDim ⟨2, ![M, C]⟩ ![0, 1] := by
  refine ⟨inj01, fun a => ?_⟩
  match a with
  | ⟨0, _⟩ => exact Or.inr rfl
  | ⟨1, _⟩ => exact Or.inl rfl

/-- A scalar broadcasts to M × C, at every M and C. -/
theorem bidScalar (M C : Nat) : (⟨0, ![]⟩ : Shape).BroadcastsInDim ⟨2, ![M, C]⟩ ![] :=
  ⟨fun a => a.elim0, fun a => a.elim0⟩

variable {T M : Nat} {r0 : Nat} {hr : r0 + T ≤ M}

/-- A T × 1 column repeated across C columns is the tile of the M × 1 column repeated across C columns: both read
    the column's entry of the row. -/
theorem colRep {C : Nat} {x : (⟨2, ![T, 1]⟩ : Shape).Idx → EReal} {X : (⟨2, ![M, 1]⟩ : Shape).Idx → EReal}
    (h2 : (⟨2, ![T, 1]⟩ : Shape).Broadcasts ⟨2, ![T, C]⟩)
    (g2 : (⟨2, ![M, 1]⟩ : Shape).BroadcastsInDim ⟨2, ![M, C]⟩ ![0, 1])
    (hx : IsTile r0 hr x X) :
    IsTile r0 hr (broadcastTo ⟨2, ![T, C]⟩ x h2) (broadcastInDim ⟨2, ![M, C]⟩ ![0, 1] g2 X) := by
  intro p l
  have hp := p.isLt
  have eL : broadcastTo ⟨2, ![T, C]⟩ x h2 (ix2 p l) = x (ix2 p ⟨0, Nat.one_pos⟩) := by
    refine (broadcastTo_apply _ h2 (ix2 p l) (ix2 p ⟨0, Nat.one_pos⟩) fun a => ?_)
    match a with
    | ⟨0, _⟩ =>
      show p.val = if T = 1 then 0 else p.val
      split <;> omega
    | ⟨1, _⟩ => rfl
  have eR : broadcastInDim ⟨2, ![M, C]⟩ ![0, 1] g2 X (ix2 ⟨r0 + p.val, by omega⟩ l)
      = X (ix2 ⟨r0 + p.val, by omega⟩ ⟨0, Nat.one_pos⟩) := by
    refine (broadcastInDim_apply _ g2 _ (ix2 ⟨r0 + p.val, by omega⟩ l) (ix2 ⟨r0 + p.val, by omega⟩ ⟨0, Nat.one_pos⟩) fun a => ?_)
    match a with
    | ⟨0, _⟩ =>
      show r0 + p.val = if M = 1 then 0 else r0 + p.val
      split <;> omega
    | ⟨1, _⟩ => rfl
  exact eL.trans ((hx p _).trans eR.symm)

/-- The source index of a sum over the columns: row p of the column of sums reads row p, column k. -/
theorem lift_row {C : Nat} (h : (⟨2, ![T, C]⟩ : Shape).Reduces [1] ⟨1, ![T]⟩) (p : Fin T) (k : Fin C) :
    h.lift (ix1 p) k = ix2 p k := by
  funext a
  match a with
  | ⟨0, _⟩ => rfl
  | ⟨1, _⟩ => rfl

/-- The sums along the rows of an M × C array, kept as an M × 1 column. -/
def rowSum {M C : Nat} (X : (⟨2, ![M, C]⟩ : Shape).Idx → EReal) : (⟨2, ![M, 1]⟩ : Shape).Idx → EReal :=
  fun i => ∑ l : Fin C, X (ix2 (n0 := M) (n1 := C) (i 0) l)

/-- Row a of the column of row sums is the sum of row a. -/
theorem rowSum_apply {M C : Nat} (X : (⟨2, ![M, C]⟩ : Shape).Idx → EReal) (a : Fin M) (q : Fin 1) :
    rowSum X (ix2 a q) = ∑ l : Fin C, X (ix2 a l) := rfl

/-- The sum along each row of a tile, kept as a T × 1 column, is the tile of the whole array's row sums kept as an
    M × 1 column: row r0 + p of X is row p of x, entry by entry. The whole side is the explicit sum over the C columns
    (`rowSum`). -/
theorem laneSum {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.add.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .add [1] ⟨1, ![T]⟩ x acc h hφ hacc) hc)
      (rowSum X) := by
  intro p q
  have hq := q.isLt
  have e1 : shapeCast ⟨2, ![T, 1]⟩ (multiReduction (F := Ideal) (φ := .f32) .add [1] ⟨1, ![T]⟩ x acc h hφ hacc) hc (ix2 p q)
      = multiReduction (F := Ideal) (φ := .f32) .add [1] ⟨1, ![T]⟩ x acc h hφ hacc (ix1 p) := by
    refine shapeCast_apply _ hc (ix2 p q) (ix1 p) ?_
    rw [Shape.rowMajor_val_one, Shape.rowMajor_val_two]
    show p.val = p.val * 1 + q.val
    omega
  rw [e1, Ideal.multiReduction_add_single, rowSum_apply]
  show ∑ k : Fin C, x (h.lift (ix1 p) k) = ∑ l : Fin C, X (ix2 ⟨r0 + p.val, by omega⟩ l)
  refine Finset.sum_congr rfl fun k _ => ?_
  rw [lift_row h p k]
  exact hx p k

/-- A cast to the same shape changes nothing, so it keeps tiles. -/
theorem castSelf {C : Nat} {x : (⟨2, ![T, C]⟩ : Shape).Idx → EReal} {X : (⟨2, ![M, C]⟩ : Shape).Idx → EReal}
    (h : (⟨2, ![T, C]⟩ : Shape).ShapeCasts ⟨2, ![T, C]⟩) (hx : IsTile r0 hr x X) :
    IsTile r0 hr (shapeCast ⟨2, ![T, C]⟩ x h) X := by
  rw [shapeCast_self]
  exact hx

/-- A 1 × 1 value repeated down a T × 1 column, against the same value repeated down an M × 1 column: a 1 × C row
    repeated down the rows, at C = 1. -/
theorem oneRep (r : (⟨2, ![1, 1]⟩ : Shape).Idx → EReal)
    (h2 : (⟨2, ![1, 1]⟩ : Shape).Broadcasts ⟨2, ![T, 1]⟩)
    (g2 : (⟨2, ![1, 1]⟩ : Shape).BroadcastsInDim ⟨2, ![M, 1]⟩ ![0, 1]) :
    IsTile r0 hr (broadcastTo ⟨2, ![T, 1]⟩ r h2) (broadcastInDim ⟨2, ![M, 1]⟩ ![0, 1] g2 r) :=
  rowRep r h2 g2

section VectorOps
variable {C : Nat} {φ : FTy} {x y : (⟨2, ![T, C]⟩ : Shape).Idx → EReal} {X Y : (⟨2, ![M, C]⟩ : Shape).Idx → EReal}

/-- A kernel's vector sum, at the ideal values, adds entry by entry. -/
theorem vAdd (hx : IsTile r0 hr x X) (hy : IsTile r0 hr y Y) :
    IsTile r0 hr (addf (F := Ideal) (φ := φ) x y) (fun i => X i + Y i) :=
  map₂ (fun a b => a + b) hx hy

/-- A kernel's vector product, at the ideal values, multiplies entry by entry. -/
theorem vMul (hx : IsTile r0 hr x X) (hy : IsTile r0 hr y Y) :
    IsTile r0 hr (mulf (F := Ideal) (φ := φ) x y) (fun i => X i * Y i) :=
  map₂ (fun a b => a * b) hx hy

/-- A kernel's vector quotient, at the ideal values, divides entry by entry. -/
theorem vDiv (hx : IsTile r0 hr x X) (hy : IsTile r0 hr y Y) :
    IsTile r0 hr (divf (F := Ideal) (φ := φ) x y) (fun i => Ideal.div (X i) (Y i)) :=
  map₂ (fun a b => Ideal.div a b) hx hy

/-- A kernel's vector maximum, at the ideal values, takes the larger entry by entry. -/
theorem vMax (hx : IsTile r0 hr x X) (hy : IsTile r0 hr y Y) :
    IsTile r0 hr (maximumf (F := Ideal) (φ := φ) x y) (fun i => max (X i) (Y i)) :=
  map₂ (fun a b => max a b) hx hy

/-- A narrowing of the float format is the identity at the ideal values. -/
theorem vTrunc (ψ : FTy) (h : ψ.bits < φ.bits) (hx : IsTile r0 hr x X) :
    IsTile r0 hr (truncf (F := Ideal) (φ := φ) ψ x h) X :=
  fun p l => hx p l

/-- A widening of the float format is the identity at the ideal values. -/
theorem vExt (ψ : FTy) (h : φ.bits < ψ.bits) (hx : IsTile r0 hr x X) :
    IsTile r0 hr (extf (F := Ideal) (φ := φ) ψ x h) X :=
  fun p l => hx p l

/-- A splat of the value of a 32-bit pattern over the tile, against the rank-0 constant of that pattern broadcast over
    the whole array. -/
theorem vSplat (b : BitVec 32) (g : (⟨0, ![]⟩ : Shape).BroadcastsInDim ⟨2, ![M, C]⟩ ![]) :
    IsTile r0 hr (broadcast ⟨2, ![T, C]⟩ (Scalar.ofBits (F := Ideal) .f32 b))
      (broadcastInDim ⟨2, ![M, C]⟩ ![] g (constant (F := Ideal) ⟨0, ![]⟩ .f32 b)) :=
  splat (Scalar.ofBits (F := Ideal) .f32 b) (constant (F := Ideal) ⟨0, ![]⟩ .f32 b) rfl g

end VectorOps

/-- A kernel's product of a tile with a weight matrix into the zero splat, under any dimension record that is the
    plain one and any precision, against the whole array's product into zero. -/
theorem vMatmul {K N : Nat} {φ₁ φ₂ : FTy} {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N) (prec : Option ContractPrecision)
    (W : (⟨2, ![K, N]⟩ : Shape).Idx → EReal) (hx : IsTile r0 hr x X) :
    IsTile r0 hr
      (Idealize.ShloMosaic.matmul (F := Ideal) (φ₁ := φ₁) (φ₂ := φ₂) d prec x W (constant ⟨2, ![T, N]⟩ .f32 0x00000000#32))
      (Ideal.matmul (DotDims.plain M K N) X W (fun _ => 0)) := by
  subst hd
  exact matmul W hx

end Cert.Tile

end
-- ==== Proof.MlpTile.lean ====
/-
  A row tile of a two-layer dense network is the network of the row tile.

  The kernel works on T consecutive rows of its input at a time: with x rows [r0, r0 + T) of X, it computes
  silu (x · W1 + b1) · W2 + b2 (and, for the filters, scales row p by the p-th cutoff value of the tile). Row r0 + p of
  X · W only reads row r0 + p of X, a bias row and a splat are the same in every row, silu acts entry by entry, and the
  cutoff column is read at the row: so what the kernel computes on the tile is rows [r0, r0 + T) of the whole-array
  network. The activation is written sigmoid by the kernel and 1 / (1 + e^(-h)) by the whole-array side; on the
  extended reals these are one function, the literal one being the number 1. A change of float format is the
  identity there.
-/
import proofs.«119322_j62663572848821_1_alg».proof.Proof.LibTileMore
import proofs.«119322_j62663572848821_1_alg».proof.Proof.Spec
import proofs.«119322_j62663572848821_1_alg».proof.Proof.Gen.KernelIdeal.Skeleton

noncomputable section

namespace Cert.Msg

open Idealize.ShloMosaic Idealize.ShloMosaic.ValueIdx Cert.Tile

/-- The float pattern 0x3F800000 is the number one. -/
theorem one_f32 : Ideal.ofBits .f32 0x3F800000#32 = 1 := by
  simp [Ideal.ofBits, Ideal.ieee, -EReal.coe_mul] <;> norm_num

section Generic

variable {T M : Nat} {r0 : Nat} {hr : r0 + T ≤ M}

/-- A 1 × C row holding the C entries of b is b viewed as a row. -/
theorem row_eq {C : Nat} (r : (⟨2, ![1, C]⟩ : Shape).Idx → EReal) (b : (⟨1, ![C]⟩ : Shape).Idx → EReal)
    (g1 : (⟨1, ![C]⟩ : Shape).BroadcastsInDim ⟨2, ![1, C]⟩ ![1])
    (h : ∀ l : Fin C, r (ix2 ⟨0, Nat.one_pos⟩ l) = b (ix1 l)) :
    r = broadcastInDim ⟨2, ![1, C]⟩ ![1] g1 b := by
  funext j
  obtain ⟨z, l, rfl⟩ : ∃ (z : Fin 1) (l : Fin C), j = ix2 z l := ⟨j 0, j 1, eq_ix2 j⟩
  obtain rfl : z = ⟨0, Nat.one_pos⟩ := Subsingleton.elim _ _
  have hl := l.isLt
  rw [h l]
  refine (broadcastInDim_apply _ g1 b (ix2 ⟨0, Nat.one_pos⟩ l) (ix1 l) fun a => ?_).symm
  match a with
  | ⟨0, _⟩ =>
    show l.val = if C = 1 then 0 else l.val
    split <;> omega

/-- A bias held as a 1 × C row, repeated down the tile's rows, against the bias broadcast over the whole array. -/
theorem biasRow {C : Nat} (r : (⟨2, ![1, C]⟩ : Shape).Idx → EReal) (b : (⟨1, ![C]⟩ : Shape).Idx → EReal)
    (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1])
    (h : ∀ l : Fin C, r (ix2 ⟨0, Nat.one_pos⟩ l) = b (ix1 l)) :
    IsTile r0 hr (broadcastTo ⟨2, ![T, C]⟩ r h2)
      (broadcastInDim ⟨2, ![M, C]⟩ ![0, 1] g2 (broadcastInDim ⟨2, ![1, C]⟩ ![1] g1 b)) := by
  rw [← row_eq r b g1 h]
  exact rowRep r h2 g2

/-- A T × 1 column holding entries [r0, r0 + T) of an M-vector, repeated across C columns, against the vector viewed as a
    column and repeated across the whole array's columns. -/
theorem vecCol {C : Nat} (x : (⟨2, ![T, 1]⟩ : Shape).Idx → EReal) (v : (⟨1, ![M]⟩ : Shape).Idx → EReal)
    (h2 : (⟨2, ![T, 1]⟩ : Shape).Broadcasts ⟨2, ![T, C]⟩)
    (g1 : (⟨1, ![M]⟩ : Shape).BroadcastsInDim ⟨2, ![M, 1]⟩ ![0])
    (g2 : (⟨2, ![M, 1]⟩ : Shape).BroadcastsInDim ⟨2, ![M, C]⟩ ![0, 1])
    (h : ∀ p : Fin T, x (ix2 p ⟨0, Nat.one_pos⟩) = v (ix1 ⟨r0 + p.val, by omega⟩)) :
    IsTile r0 hr (broadcastTo ⟨2, ![T, C]⟩ x h2)
      (broadcastInDim ⟨2, ![M, C]⟩ ![0, 1] g2 (broadcastInDim ⟨2, ![M, 1]⟩ ![0] g1 v)) := by
  refine colRep h2 g2 fun p l => ?_
  obtain rfl : l = ⟨0, Nat.one_pos⟩ := Subsingleton.elim _ _
  have hp := p.isLt
  rw [h p]
  refine (broadcastInDim_apply _ g1 v (ix2 ⟨r0 + p.val, by omega⟩ ⟨0, Nat.one_pos⟩) (ix1 ⟨r0 + p.val, by omega⟩) fun a => ?_).symm
  match a with
  | ⟨0, _⟩ =>
    show r0 + p.val = if M = 1 then 0 else r0 + p.val
    split <;> omega

/-- silu keeps tiles: the kernel's x * sigmoid x against the whole array's X * (1 / (1 + e^(-X))). -/
theorem siluTile {C : Nat} {x : (⟨2, ![T, C]⟩ : Shape).Idx → EReal} {X : (⟨2, ![M, C]⟩ : Shape).Idx → EReal}
    (g : (⟨0, ![]⟩ : Shape).BroadcastsInDim ⟨2, ![M, C]⟩ ![]) (hx : IsTile r0 hr x X) :
    IsTile r0 hr (mulf (F := Ideal) (φ := .f32) x (logistic x))
      (mulf (F := Ideal) (φ := .f32) X (Host.divf (broadcastInDim ⟨2, ![M, C]⟩ ![] g (constant (F := Ideal) ⟨0, ![]⟩ .f32 0x3F800000#32))
        (addf (broadcastInDim ⟨2, ![M, C]⟩ ![] g (constant (F := Ideal) ⟨0, ![]⟩ .f32 0x3F800000#32)) (Host.exp (Host.negf X))))) := by
  intro p l
  have h1 : Ideal.ofBits .f32 0x3F800000#32
      = broadcastInDim ⟨2, ![M, C]⟩ ![] g (constant (F := Ideal) ⟨0, ![]⟩ .f32 0x3F800000#32) (ix2 ⟨r0 + p.val, by omega⟩ l) :=
    vSplat (T := T) (r0 := r0) (hr := hr) (C := C) 0x3F800000#32 g p l
  simp only [mulf, logistic, Host.divf, addf, Host.exp, Host.negf, Ideal.mulf_def, Ideal.logistic_def, Ideal.hostDivf_def,
    Ideal.addf_def, Ideal.hostUnary_exp_def, Ideal.hostNegf_def]
  rw [← h1, one_f32, hx p l]
  rfl

section Whole
variable {C : Nat} {φ : FTy} {x y : (⟨2, ![T, C]⟩ : Shape).Idx → EReal} {X Y : (⟨2, ![M, C]⟩ : Shape).Idx → EReal}

/-- A sum of tiles against the sum of the whole arrays. -/
theorem tAdd (hx : IsTile r0 hr x X) (hy : IsTile r0 hr y Y) :
    IsTile r0 hr (addf (F := Ideal) (φ := φ) x y) (addf (F := Ideal) (φ := φ) X Y) := vAdd hx hy

/-- A product of tiles against the product of the whole arrays. -/
theorem tMul (hx : IsTile r0 hr x X) (hy : IsTile r0 hr y Y) :
    IsTile r0 hr (mulf (F := Ideal) (φ := φ) x y) (mulf (F := Ideal) (φ := φ) X Y) := vMul hx hy

end Whole

/-- The kernel's product of a tile with a weight matrix against the whole array's host product. -/
theorem tMatmul {K N : Nat} {φ₁ φ₂ ψ₁ ψ₂ : FTy} {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N)
    (D : DotDims ⟨2, ![M, K]⟩ ⟨2, ![K, N]⟩ ⟨2, ![M, N]⟩) (hD : D = DotDims.plain M K N)
    (W : (⟨2, ![K, N]⟩ : Shape).Idx → EReal) (hx : IsTile r0 hr x X) :
    IsTile r0 hr
      (Idealize.ShloMosaic.matmul (F := Ideal) (φ₁ := φ₁) (φ₂ := φ₂) d none x W (constant ⟨2, ![T, N]⟩ .f32 0x00000000#32))
      (Host.dotGeneral (F := Ideal) (φ₁ := ψ₁) (φ₂ := ψ₂) D none X W) := by
  subst hD
  exact vMatmul d hd none W hx

end Generic

/-- Equal at every pair of coordinates, two matrices are equal. -/
theorem eq_of_ix2 {A B : Nat} {u v : (⟨2, ![A, B]⟩ : Shape).Idx → EReal} (h : ∀ (a : Fin A) (b : Fin B), u (ix2 a b) = v (ix2 a b)) :
    u = v := by
  funext j
  obtain ⟨a, b, rfl⟩ : ∃ (a : Fin A) (b : Fin B), j = ix2 a b := ⟨j 0, j 1, eq_ix2 j⟩
  exact h a b

/-- THE FILTER NETWORK ON A TILE. With the tile of the radial features and of the cutoff column at rows [r0, r0 + 6400),
    and the weights and biases whole, the kernel's stored value is rows [r0, r0 + 6400) of the filters. -/
theorem filters_tile {r0 : Nat} (hr : r0 + 6400 ≤ 320000)
    (x0 : (⟨2, ![6400, 20]⟩ : Shape).Idx → EReal) (x1 : (⟨2, ![6400, 1]⟩ : Shape).Idx → EReal)
    (x2 : (⟨2, ![20, 128]⟩ : Shape).Idx → EReal) (x3 : (⟨2, ![1, 128]⟩ : Shape).Idx → EReal)
    (x4 : (⟨2, ![128, 384]⟩ : Shape).Idx → EReal) (x5 : (⟨2, ![1, 384]⟩ : Shape).Idx → EReal)
    (rbf : (⟨2, ![320000, 20]⟩ : Shape).Idx → EReal) (cut : (⟨1, ![320000]⟩ : Shape).Idx → EReal)
    (wf1 : (⟨2, ![20, 128]⟩ : Shape).Idx → EReal) (bf1 : (⟨1, ![128]⟩ : Shape).Idx → EReal)
    (wf2 : (⟨2, ![128, 384]⟩ : Shape).Idx → EReal) (bf2 : (⟨1, ![384]⟩ : Shape).Idx → EReal)
    (h0 : IsTile r0 hr x0 rbf)
    (h1 : ∀ p : Fin 6400, x1 (ix2 p ⟨0, Nat.one_pos⟩) = cut (ix1 ⟨r0 + p.val, by omega⟩))
    (h2 : ∀ (a : Fin 20) (b : Fin 128), x2 (ix2 a b) = wf1 (ix2 a b))
    (h3 : ∀ l : Fin 128, x3 (ix2 ⟨0, Nat.one_pos⟩ l) = bf1 (ix1 l))
    (h4 : ∀ (a : Fin 128) (b : Fin 384), x4 (ix2 a b) = wf2 (ix2 a b))
    (h5 : ∀ l : Fin 384, x5 (ix2 ⟨0, Nat.one_pos⟩ l) = bf2 (ix1 l)) :
    IsTile r0 hr (Cert.KernelIdeal.Gen.k0_pay1 (F := Ideal) x0 x2 x3 x4 x5 x1) (filters rbf cut wf1 bf1 wf2 bf2) := by
  obtain rfl : x2 = wf1 := eq_of_ix2 h2
  obtain rfl : x4 = wf2 := eq_of_ix2 h4
  dsimp only [Cert.KernelIdeal.Gen.k0_pay1]
  simp only [shapeCast_self]
  unfold filters siluE filterHidden
  exact tMul
    (tAdd
      (tMatmul _ rfl _ rfl x4 (vTrunc .bf16 _ (siluTile _ (tAdd (tMatmul _ rfl _ rfl x2 (vTrunc .bf16 _ h0)) (biasRow x3 bf1 _ _ _ h3)))))
      (biasRow x5 bf2 _ _ _ h5))
    (vecCol x1 cut _ _ _ h1)

/-- THE NODE NETWORK ON A TILE. With the tile of the node features at rows [r0, r0 + 2000), and the weights and biases
    whole, the kernel's stored value is rows [r0, r0 + 2000) of the node network's output. -/
theorem nodes_tile {r0 : Nat} (hr : r0 + 2000 ≤ 10000)
    (x0 : (⟨2, ![2000, 128]⟩ : Shape).Idx → EReal)
    (x1 : (⟨2, ![128, 384]⟩ : Shape).Idx → EReal) (x2 : (⟨2, ![1, 384]⟩ : Shape).Idx → EReal)
    (x3 : (⟨2, ![384, 384]⟩ : Shape).Idx → EReal) (x4 : (⟨2, ![1, 384]⟩ : Shape).Idx → EReal)
    (q : (⟨2, ![10000, 128]⟩ : Shape).Idx → EReal)
    (w1 : (⟨2, ![128, 384]⟩ : Shape).Idx → EReal) (b1 : (⟨1, ![384]⟩ : Shape).Idx → EReal)
    (w2 : (⟨2, ![384, 384]⟩ : Shape).Idx → EReal) (b2 : (⟨1, ![384]⟩ : Shape).Idx → EReal)
    (h0 : IsTile r0 hr x0 q)
    (h1 : ∀ (a : Fin 128) (b : Fin 384), x1 (ix2 a b) = w1 (ix2 a b))
    (h2 : ∀ l : Fin 384, x2 (ix2 ⟨0, Nat.one_pos⟩ l) = b1 (ix1 l))
    (h3 : ∀ (a : Fin 384) (b : Fin 384), x3 (ix2 a b) = w2 (ix2 a b))
    (h4 : ∀ l : Fin 384, x4 (ix2 ⟨0, Nat.one_pos⟩ l) = b2 (ix1 l)) :
    IsTile r0 hr (Cert.KernelIdeal.Gen.k1_pay1 (F := Ideal) x0 x1 x2 x3 x4) (nodes q w1 b1 w2 b2) := by
  obtain rfl : x1 = w1 := eq_of_ix2 h1
  obtain rfl : x3 = w2 := eq_of_ix2 h3
  dsimp only [Cert.KernelIdeal.Gen.k1_pay1]
  simp only [shapeCast_self]
  unfold nodes siluN nodeHidden
  exact tAdd
    (tMatmul _ rfl _ rfl x3 (vTrunc .bf16 _ (siluTile _ (tAdd (tMatmul _ rfl _ rfl x1 (vTrunc .bf16 _ h0)) (biasRow x2 b1 _ _ _ h2)))))
    (biasRow x4 b2 _ _ _ h4)

end Cert.Msg

end
-- ==== Proof.Region0.lean ====
/-
  The first grid leaves the filters in its output array.

  The grid has 50 points; point t stages rows [6400 t, 6400 t + 6400) of the radial features and of the cutoff column,
  and the two weight matrices and the two bias rows whole, and writes back rows [6400 t, 6400 t + 6400) of its output. What
  it stores is the filter network on the tile, which is those rows of the filters of the whole arrays; the 50 blocks tile
  the 320000 rows, so after the grid the output array is the filters. The arrays the region finds are the arguments
  themselves, the cutoff vector viewed as a column, the biases viewed as rows, and the weights in the narrower float
  format, which holds the same extended reals.
-/
import proofs.«119322_j62663572848821_1_alg».proof.Proof.Gen.KernelIdeal.Frame
import proofs.«119322_j62663572848821_1_alg».proof.Proof.MlpTile
import Idealize.ShloMosaic.Lib.Pipeline.Value

set_option maxRecDepth 16384

noncomputable section

namespace Cert.KernelIdeal.Named

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays as the first grid finds them -/

theorem V1_arg3 (c : Dev nD) : V1 m ρ c main_arg3 = m ((c : Thread nD τ).loc main_arg3) := by
  show StableHlo.after hostOps0 (W0 m ρ c) (Proc.devRef .tc main_arg3) = _
  after_results

theorem V1_v0 (c : Dev nD) : V1 m ρ c main_v0 = shapeCast S320000x1 (m ((c : Thread nD τ).loc main_arg5)) Facts₀.shapeCasts_S320000_S320000x1 := by
  show StableHlo.after hostOps0 (W0 m ρ c) (Proc.devRef .tc main_v0) = _
  after_results
  rfl

theorem V1_v1 (c : Dev nD) : V1 m ρ c main_v1 = shapeCast S1x128 (m ((c : Thread nD τ).loc main_arg11)) Facts₀.shapeCasts_S128_S1x128 := by
  show StableHlo.after hostOps0 (W0 m ρ c) (Proc.devRef .tc main_v1) = _
  after_results
  rfl

theorem V1_v2 (c : Dev nD) : V1 m ρ c main_v2 = shapeCast S1x384 (m ((c : Thread nD τ).loc main_arg13)) Facts₀.shapeCasts_S384_S1x384 := by
  show StableHlo.after hostOps0 (W0 m ρ c) (Proc.devRef .tc main_v2) = _
  after_results
  rfl

/-- The first weight matrix in the narrower format holds the same extended reals. -/
theorem V1_v3 (c : Dev nD) (y : S20x128.Idx) : V1 m ρ c main_v3 y = m ((c : Thread nD τ).loc main_arg10) y := by
  show StableHlo.after hostOps0 (W0 m ρ c) (Proc.devRef .tc main_v3) y = _
  after_results
  rfl

/-- So does the second. -/
theorem V1_v4 (c : Dev nD) (y : S128x384.Idx) : V1 m ρ c main_v4 y = m ((c : Thread nD τ).loc main_arg12) y := by
  show StableHlo.after hostOps0 (W0 m ρ c) (Proc.devRef .tc main_v4) y = _
  after_results
  rfl

/-! ## Where each window's block sits -/

/-- The printed index maps over the 50 points: the row-tiled windows are at block row t, the others at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt0 (t : Fin cfg0.N) : t.val < 50 := by
  have h := t.isLt
  have hN : cfg0.N = 50 := N_0
  omega

/-! ## Each input block, read at coordinates -/

/-- Point t's block of the radial features is rows [6400 t, 6400 t + 6400) of the argument. -/
theorem rd0_0 (c : Dev nD) (t : Fin cfg0.N) (hr : t.val * 6400 + 6400 ≤ 320000) :
    Cert.Tile.IsTile (t.val * 6400) hr (iblk0 (V1 m ρ) c 0 t) (m ((c : Thread nD τ).loc main_arg3)) := by
  intro p l
  obtain ⟨e0, e1, -⟩ := idx0 t
  show V1 m ρ c main_arg3 (((cfg0.win 0).blk t).view.emb (ix2 p l)) = _
  rw [V1_arg3]
  refine congrArg _ (funext fun a => Fin.ext ?_)
  match a with
  | ⟨0, _⟩ => show win0_0.index t (0 : Fin 2) * 6400 + 1 * p.val = t.val * 6400 + p.val; omega
  | ⟨1, _⟩ => show win0_0.index t (1 : Fin 2) * 20 + 1 * l.val = l.val; omega

/-- Point t's block of the cutoff column holds entries [6400 t, 6400 t + 6400) of the cutoff vector. -/
theorem rd0_1 (c : Dev nD) (t : Fin cfg0.N) (hr : t.val * 6400 + 6400 ≤ 320000) (p : Fin 6400) :
    iblk0 (V1 m ρ) c 1 t (ix2 p ⟨0, Nat.one_pos⟩) = m ((c : Thread nD τ).loc main_arg5) (ix1 ⟨t.val * 6400 + p.val, by omega⟩) := by
  obtain ⟨-, -, e0, e1, -⟩ := idx0 t
  show V1 m ρ c main_v0 (((cfg0.win 1).blk t).view.emb (ix2 p ⟨0, Nat.one_pos⟩)) = _
  rw [V1_v0]
  refine shapeCast_apply _ _ _ (ix1 ⟨t.val * 6400 + p.val, by omega⟩) ?_
  rw [Shape.rowMajor_val_one, Shape.rowMajor_val_two]
  show t.val * 6400 + p.val = (win0_1.index t (0 : Fin 2) * 6400 + 1 * p.val) * 1 + (win0_1.index t (1 : Fin 2) * 1 + 1 * 0)
  omega

/-- The first weight matrix is staged whole. -/
theorem rd0_2 (c : Dev nD) (t : Fin cfg0.N) (a : Fin 20) (b : Fin 128) :
    iblk0 (V1 m ρ) c 2 t (ix2 a b) = m ((c : Thread nD τ).loc main_arg10) (ix2 a b) := by
  obtain ⟨-, -, -, -, e0, e1, -⟩ := idx0 t
  show V1 m ρ c main_v3 (((cfg0.win 2).blk t).view.emb (ix2 a b)) = _
  rw [V1_v3]
  refine congrArg _ (funext fun k => Fin.ext ?_)
  match k with
  | ⟨0, _⟩ => show win0_2.index t (0 : Fin 2) * 20 + 1 * a.val = a.val; omega
  | ⟨1, _⟩ => show win0_2.index t (1 : Fin 2) * 128 + 1 * b.val = b.val; omega

/-- The first bias is staged whole, as a row. -/
theorem rd0_3 (c : Dev nD) (t : Fin cfg0.N) (l : Fin 128) :
    iblk0 (V1 m ρ) c 3 t (ix2 ⟨0, Nat.one_pos⟩ l) = m ((c : Thread nD τ).loc main_arg11) (ix1 l) := by
  obtain ⟨-, -, -, -, -, -, e0, e1, -⟩ := idx0 t
  show V1 m ρ c main_v1 (((cfg0.win 3).blk t).view.emb (ix2 ⟨0, Nat.one_pos⟩ l)) = _
  rw [V1_v1]
  refine shapeCast_apply _ _ _ (ix1 l) ?_
  rw [Shape.rowMajor_val_one, Shape.rowMajor_val_two]
  show l.val = (win0_3.index t (0 : Fin 2) * 1 + 1 * 0) * 128 + (win0_3.index t (1 : Fin 2) * 128 + 1 * l.val)
  omega

/-- The second weight matrix is staged whole. -/
theorem rd0_4 (c : Dev nD) (t : Fin cfg0.N) (a : Fin 128) (b : Fin 384) :
    iblk0 (V1 m ρ) c 4 t (ix2 a b) = m ((c : Thread nD τ).loc main_arg12) (ix2 a b) := by
  obtain ⟨-, -, -, -, -, -, -, -, e0, e1, -⟩ := idx0 t
  show V1 m ρ c main_v4 (((cfg0.win 4).blk t).view.emb (ix2 a b)) = _
  rw [V1_v4]
  refine congrArg _ (funext fun k => Fin.ext ?_)
  match k with
  | ⟨0, _⟩ => show win0_4.index t (0 : Fin 2) * 128 + 1 * a.val = a.val; omega
  | ⟨1, _⟩ => show win0_4.index t (1 : Fin 2) * 384 + 1 * b.val = b.val; omega

/-- The second bias is staged whole, as a row. -/
theorem rd0_5 (c : Dev nD) (t : Fin cfg0.N) (l : Fin 384) :
    iblk0 (V1 m ρ) c 5 t (ix2 ⟨0, Nat.one_pos⟩ l) = m ((c : Thread nD τ).loc main_arg13) (ix1 l) := by
  obtain ⟨-, -, -, -, -, -, -, -, -, -, e0, e1, -⟩ := idx0 t
  show V1 m ρ c main_v2 (((cfg0.win 5).blk t).view.emb (ix2 ⟨0, Nat.one_pos⟩ l)) = _
  rw [V1_v2]
  refine shapeCast_apply _ _ _ (ix1 l) ?_
  rw [Shape.rowMajor_val_one, Shape.rowMajor_val_two]
  show l.val = (win0_5.index t (0 : Fin 2) * 1 + 1 * 0) * 384 + (win0_5.index t (1 : Fin 2) * 384 + 1 * l.val)
  omega

/-! ## What a point writes back, the cover, and the array after the grid -/

theorem hz : (![0, 0] : Fin 2 → Nat) = fun _ => 0 := funext fun a => by fin_cases a <;> rfl

/-- The filters of the launch memory's arguments. -/
abbrev filtersOf (c : Dev nD) : FVec Ideal S320000x384 .f32 :=
  Cert.Msg.filters (m ((c : Thread nD τ).loc main_arg3)) (m ((c : Thread nD τ).loc main_arg5))
    (m ((c : Thread nD τ).loc main_arg10)) (m ((c : Thread nD τ).loc main_arg11))
    (m ((c : Thread nD τ).loc main_arg12)) (m ((c : Thread nD τ).loc main_arg13))

/-- Point t writes back rows [6400 t, 6400 t + 6400) of the filters. -/
theorem flushed0 (c : Dev nD) (t : Fin cfg0.N) :
    (dat0 (V1 m ρ) c).flushed 6 t = ((cfg0.win 6).blk t).view.read (Elt Ideal) (filtersOf m c) := by
  show (cfg0.win 6).cut (grid0.coords t) ((dat0 (V1 m ρ) c).after 6 t) = _
  rw [after0_6]
  unfold out0_6
  rw [View.canon_unit_zero hz]
  simp only [View.ld_unit_zero (S := S6400x20) hz, View.ld_unit_zero (S := S6400x1) hz, View.ld_unit_zero (S := S20x128) hz,
    View.ld_unit_zero (S := S1x128) hz, View.ld_unit_zero (S := S128x384) hz, View.ld_unit_zero (S := S1x384) hz]
  have ht := lt0 t
  have hr : t.val * 6400 + 6400 ≤ 320000 := by omega
  obtain ⟨-, -, -, -, -, -, -, -, -, -, -, -, e0, e1⟩ := idx0 t
  funext j
  obtain ⟨p, q, rfl⟩ : ∃ (p : Fin 6400) (q : Fin 384), j = ix2 p q := ⟨j 0, j 1, eq_ix2 j⟩
  refine (Cert.Msg.filters_tile hr (iblk0 (V1 m ρ) c 0 t) (iblk0 (V1 m ρ) c 1 t) (iblk0 (V1 m ρ) c 2 t) (iblk0 (V1 m ρ) c 3 t)
    (iblk0 (V1 m ρ) c 4 t) (iblk0 (V1 m ρ) c 5 t)
    (m ((c : Thread nD τ).loc main_arg3)) (m ((c : Thread nD τ).loc main_arg5)) (m ((c : Thread nD τ).loc main_arg10))
    (m ((c : Thread nD τ).loc main_arg11)) (m ((c : Thread nD τ).loc main_arg12)) (m ((c : Thread nD τ).loc main_arg13))
    (rd0_0 m ρ c t hr) (rd0_1 m ρ c t hr) (rd0_2 m ρ c t) (rd0_3 m ρ c t) (rd0_4 m ρ c t) (rd0_5 m ρ c t) p q).trans ?_
  show filtersOf m c _ = filtersOf m c (((cfg0.win 6).blk t).view.emb (ix2 p q))
  refine congrArg _ (funext fun k => Fin.ext ?_)
  match k with
  | ⟨0, _⟩ => show t.val * 6400 + p.val = win0_6.index t (0 : Fin 2) * 6400 + 1 * p.val; omega
  | ⟨1, _⟩ => show q.val = win0_6.index t (1 : Fin 2) * 384 + 1 * q.val; omega

/-- An index of the output array is in point t's block iff each coordinate is in the block's range on its axis. -/
theorem mem_blk0 (t : Fin cfg0.N) (i : S320000x384.Idx) :
    i ∈ ((cfg0.win 6).blk t).view.set ↔ ∀ a : Fin 2, win0_6.index t a * S6400x384.size a ≤ (i a).val ∧ (i a).val < win0_6.index t a * S6400x384.size a + S6400x384.size a := by
  show i ∈ ((View.whole main_v5).slice (win0_6.rect t)).set ↔ _
  rw [View.set_slice_whole, Rect.mem_set_unit]
  exact Iff.rfl

/-- The 50 blocks cover the output array: row r is in the block of point r / 6400. -/
theorem cover0 (i : S320000x384.Idx) :
    ∃ t : Fin cfg0.N, (cfg0.win 6).flush t = true ∧ i ∈ ((cfg0.win 6).blk t).view.set := by
  have hi0 : (i 0).val < 320000 := (i 0).isLt
  have hi1 : (i 1).val < 384 := (i 1).isLt
  have hN : cfg0.N = 50 := N_0
  refine ⟨⟨(i 0).val / 6400, by omega⟩, flush0_6 _, ?_⟩
  obtain ⟨-, -, -, -, -, -, -, -, -, -, -, -, e0, e1⟩ := idx0 ⟨(i 0).val / 6400, by omega⟩
  rw [mem_blk0]
  intro a
  match a with
  | ⟨0, _⟩ =>
    show win0_6.index _ (0 : Fin 2) * 6400 ≤ (i 0).val ∧ (i 0).val < win0_6.index _ (0 : Fin 2) * 6400 + 6400
    rw [e0]
    show (i 0).val / 6400 * 6400 ≤ (i 0).val ∧ (i 0).val < (i 0).val / 6400 * 6400 + 6400
    omega
  | ⟨1, _⟩ =>
    show win0_6.index _ (1 : Fin 2) * 384 ≤ (i 1).val ∧ (i 1).val < win0_6.index _ (1 : Fin 2) * 384 + 384
    rw [e1]
    omega

/-- After the first grid its output array is the filters of the arguments. -/
theorem filters_final (c : Dev nD) : (dat0 (V1 m ρ) c).arrAt 6 cfg0.N = filtersOf m c :=
  (dat0 (V1 m ρ) c).arrAt_eq_of_cover 6 (filtersOf m c) (fun t _ => flushed0 m ρ c t) (cover0)

end Cert.KernelIdeal.Named

end
-- ==== Proof.Region1.lean ====
/-
  The second grid leaves the node network's output in its output array.

  The grid has 5 points; point t stages rows [2000 t, 2000 t + 2000) of the node features, and the two weight matrices and
  the two bias rows whole, and writes back rows [2000 t, 2000 t + 2000) of its output. What it stores is the node network on
  the tile, which is those rows of the node network of the whole arrays; the 5 blocks tile the 10000 rows. The arrays
  this region finds are the node features, which neither the first grid nor a host operation wrote, the biases viewed
  as rows, and the weights in the narrower float format, which holds the same extended reals.
-/
import proofs.«119322_j62663572848821_1_alg».proof.Proof.Gen.KernelIdeal.Frame
import proofs.«119322_j62663572848821_1_alg».proof.Proof.MlpTile
import Idealize.ShloMosaic.Lib.Pipeline.Value

set_option maxRecDepth 16384

noncomputable section

namespace Cert.KernelIdeal.Named

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays as the second grid finds them -/

/-- "No operation of the first stretch writes the buffer": each operation writes its one result buffer, another one. -/
local macro "no_write0" : tactic => `(tactic| (
  simp only [hostOps0, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- An argument that is neither an array of the first grid's output nor a result of the first stretch is, after both,
    as launched. -/
theorem W2_of_arg (c : Dev nD) (b : Ref sig .tc) (h0 : ∀ w, Pipeline.arrRef spec0 w ≠ b)
    (h1 : (hostOps0 : List (HloOp τ sig (Elt Ideal))).Forall fun op => Proc.devRef .tc b ∉ op.writes) :
    W2 m ρ c (Proc.devRef .tc b) = m ((c : Thread nD τ).loc b) :=
  (W2_of_ne m ρ c b h0).trans
    (StableHlo.after_of_forall_not_mem (b := Proc.devRef .tc b) _ _ (List.forall_iff_forall_mem.mp h1))

theorem W2_arg0 (c : Dev nD) : W2 m ρ c (Proc.devRef .tc main_arg0) = m ((c : Thread nD τ).loc main_arg0) :=
  W2_of_arg m ρ c main_arg0 (by decide) (by no_write0)
theorem W2_arg6 (c : Dev nD) : W2 m ρ c (Proc.devRef .tc main_arg6) = m ((c : Thread nD τ).loc main_arg6) :=
  W2_of_arg m ρ c main_arg6 (by decide) (by no_write0)
theorem W2_arg7 (c : Dev nD) : W2 m ρ c (Proc.devRef .tc main_arg7) = m ((c : Thread nD τ).loc main_arg7) :=
  W2_of_arg m ρ c main_arg7 (by decide) (by no_write0)
theorem W2_arg8 (c : Dev nD) : W2 m ρ c (Proc.devRef .tc main_arg8) = m ((c : Thread nD τ).loc main_arg8) :=
  W2_of_arg m ρ c main_arg8 (by decide) (by no_write0)
theorem W2_arg9 (c : Dev nD) : W2 m ρ c (Proc.devRef .tc main_arg9) = m ((c : Thread nD τ).loc main_arg9) :=
  W2_of_arg m ρ c main_arg9 (by decide) (by no_write0)

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c

theorem V3_v6 (c : Dev nD) : V3 m ρ c main_v6 = shapeCast S1x384 (m ((c : Thread nD τ).loc main_arg7)) Facts₀.shapeCasts_S384_S1x384 := by
  show StableHlo.after hostOps1 (W2 m ρ c) (Proc.devRef .tc main_v6) = _
  after_results
  rw [W2_arg7 m ρ c]
  rfl

theorem V3_v7 (c : Dev nD) : V3 m ρ c main_v7 = shapeCast S1x384 (m ((c : Thread nD τ).loc main_arg9)) Facts₀.shapeCasts_S384_S1x384 := by
  show StableHlo.after hostOps1 (W2 m ρ c) (Proc.devRef .tc main_v7) = _
  after_results
  rw [W2_arg9 m ρ c]
  rfl

/-- The first weight matrix in the narrower format holds the same extended reals. -/
theorem V3_v8 (c : Dev nD) (y : S128x384.Idx) : V3 m ρ c main_v8 y = m ((c : Thread nD τ).loc main_arg6) y := by
  show StableHlo.after hostOps1 (W2 m ρ c) (Proc.devRef .tc main_v8) y = _
  after_results
  rw [W2_arg6 m ρ c]
  rfl

/-- So does the second. -/
theorem V3_v9 (c : Dev nD) (y : S384x384.Idx) : V3 m ρ c main_v9 y = m ((c : Thread nD τ).loc main_arg8) y := by
  show StableHlo.after hostOps1 (W2 m ρ c) (Proc.devRef .tc main_v9) y = _
  after_results
  rw [W2_arg8 m ρ c]
  rfl

/-! ## Where each window's block sits -/

/-- The printed index maps over the 5 points: the row-tiled windows are at block row t, the others at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt1 (t : Fin cfg1.N) : t.val < 5 := by
  have h := t.isLt
  have hN : cfg1.N = 5 := N_1
  omega

/-! ## Each input block, read at coordinates -/

/-- Point t's block of the node features is rows [2000 t, 2000 t + 2000) of the argument. -/
theorem rd1_0 (c : Dev nD) (t : Fin cfg1.N) (hr : t.val * 2000 + 2000 ≤ 10000) :
    Cert.Tile.IsTile (t.val * 2000) hr (iblk1 (V3 m ρ) c 0 t) (m ((c : Thread nD τ).loc main_arg0)) := by
  intro p l
  obtain ⟨e0, e1, -⟩ := idx1 t
  show V3 m ρ c main_arg0 (((cfg1.win 0).blk t).view.emb (ix2 p l)) = _
  rw [V3_arg0]
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * l.val = l.val; omega

/-- The first weight matrix is staged whole. -/
theorem rd1_1 (c : Dev nD) (t : Fin cfg1.N) (a : Fin 128) (b : Fin 384) :
    iblk1 (V3 m ρ) c 1 t (ix2 a b) = m ((c : Thread nD τ).loc main_arg6) (ix2 a b) := by
  obtain ⟨-, -, e0, e1, -⟩ := idx1 t
  show V3 m ρ c main_v8 (((cfg1.win 1).blk t).view.emb (ix2 a b)) = _
  rw [V3_v8]
  refine congrArg _ (funext fun k => Fin.ext ?_)
  match k with
  | ⟨0, _⟩ => show win1_1.index t (0 : Fin 2) * 128 + 1 * a.val = a.val; omega
  | ⟨1, _⟩ => show win1_1.index t (1 : Fin 2) * 384 + 1 * b.val = b.val; omega

/-- The first bias is staged whole, as a row. -/
theorem rd1_2 (c : Dev nD) (t : Fin cfg1.N) (l : Fin 384) :
    iblk1 (V3 m ρ) c 2 t (ix2 ⟨0, Nat.one_pos⟩ l) = m ((c : Thread nD τ).loc main_arg7) (ix1 l) := by
  obtain ⟨-, -, -, -, e0, e1, -⟩ := idx1 t
  show V3 m ρ c main_v6 (((cfg1.win 2).blk t).view.emb (ix2 ⟨0, Nat.one_pos⟩ l)) = _
  rw [V3_v6]
  refine shapeCast_apply _ _ _ (ix1 l) ?_
  rw [Shape.rowMajor_val_one, Shape.rowMajor_val_two]
  show l.val = (win1_2.index t (0 : Fin 2) * 1 + 1 * 0) * 384 + (win1_2.index t (1 : Fin 2) * 384 + 1 * l.val)
  omega

/-- The second weight matrix is staged whole. -/
theorem rd1_3 (c : Dev nD) (t : Fin cfg1.N) (a : Fin 384) (b : Fin 384) :
    iblk1 (V3 m ρ) c 3 t (ix2 a b) = m ((c : Thread nD τ).loc main_arg8) (ix2 a b) := by
  obtain ⟨-, -, -, -, -, -, e0, e1, -⟩ := idx1 t
  show V3 m ρ c main_v9 (((cfg1.win 3).blk t).view.emb (ix2 a b)) = _
  rw [V3_v9]
  refine congrArg _ (funext fun k => Fin.ext ?_)
  match k with
  | ⟨0, _⟩ => show win1_3.index t (0 : Fin 2) * 384 + 1 * a.val = a.val; omega
  | ⟨1, _⟩ => show win1_3.index t (1 : Fin 2) * 384 + 1 * b.val = b.val; omega

/-- The second bias is staged whole, as a row. -/
theorem rd1_4 (c : Dev nD) (t : Fin cfg1.N) (l : Fin 384) :
    iblk1 (V3 m ρ) c 4 t (ix2 ⟨0, Nat.one_pos⟩ l) = m ((c : Thread nD τ).loc main_arg9) (ix1 l) := by
  obtain ⟨-, -, -, -, -, -, -, -, e0, e1, -⟩ := idx1 t
  show V3 m ρ c main_v7 (((cfg1.win 4).blk t).view.emb (ix2 ⟨0, Nat.one_pos⟩ l)) = _
  rw [V3_v7]
  refine shapeCast_apply _ _ _ (ix1 l) ?_
  rw [Shape.rowMajor_val_one, Shape.rowMajor_val_two]
  show l.val = (win1_4.index t (0 : Fin 2) * 1 + 1 * 0) * 384 + (win1_4.index t (1 : Fin 2) * 384 + 1 * l.val)
  omega

/-! ## What a point writes back, the cover, and the array after the grid -/

theorem hz1 : (![0, 0] : Fin 2 → Nat) = fun _ => 0 := funext fun a => by fin_cases a <;> rfl

/-- The node network's output of the launch memory's arguments. -/
abbrev nodesOf (c : Dev nD) : FVec Ideal S10000x384 .f32 :=
  Cert.Msg.nodes (m ((c : Thread nD τ).loc main_arg0)) (m ((c : Thread nD τ).loc main_arg6))
    (m ((c : Thread nD τ).loc main_arg7)) (m ((c : Thread nD τ).loc main_arg8)) (m ((c : Thread nD τ).loc main_arg9))

/-- Point t writes back rows [2000 t, 2000 t + 2000) of the node network's output. -/
theorem flushed1 (c : Dev nD) (t : Fin cfg1.N) :
    (dat1 (V3 m ρ) c).flushed 5 t = ((cfg1.win 5).blk t).view.read (Elt Ideal) (nodesOf m c) := by
  show (cfg1.win 5).cut (grid1.coords t) ((dat1 (V3 m ρ) c).after 5 t) = _
  rw [after1_5]
  unfold out1_5
  rw [View.canon_unit_zero hz1]
  simp only [View.ld_unit_zero (S := S2000x128) hz1, View.ld_unit_zero (S := S128x384) hz1, View.ld_unit_zero (S := S1x384) hz1,
    View.ld_unit_zero (S := S384x384) hz1]
  have ht := lt1 t
  have hr : t.val * 2000 + 2000 ≤ 10000 := by omega
  obtain ⟨-, -, -, -, -, -, -, -, -, -, e0, e1⟩ := idx1 t
  funext j
  obtain ⟨p, q, rfl⟩ : ∃ (p : Fin 2000) (q : Fin 384), j = ix2 p q := ⟨j 0, j 1, eq_ix2 j⟩
  refine (Cert.Msg.nodes_tile hr (iblk1 (V3 m ρ) c 0 t) (iblk1 (V3 m ρ) c 1 t) (iblk1 (V3 m ρ) c 2 t) (iblk1 (V3 m ρ) c 3 t)
    (iblk1 (V3 m ρ) c 4 t)
    (m ((c : Thread nD τ).loc main_arg0)) (m ((c : Thread nD τ).loc main_arg6)) (m ((c : Thread nD τ).loc main_arg7))
    (m ((c : Thread nD τ).loc main_arg8)) (m ((c : Thread nD τ).loc main_arg9))
    (rd1_0 m ρ c t hr) (rd1_1 m ρ c t) (rd1_2 m ρ c t) (rd1_3 m ρ c t) (rd1_4 m ρ c t) p q).trans ?_
  show nodesOf m c _ = nodesOf m c (((cfg1.win 5).blk t).view.emb (ix2 p q))
  refine congrArg _ (funext fun k => Fin.ext ?_)
  match k with
  | ⟨0, _⟩ => show t.val * 2000 + p.val = win1_5.index t (0 : Fin 2) * 2000 + 1 * p.val; omega
  | ⟨1, _⟩ => show q.val = win1_5.index t (1 : Fin 2) * 384 + 1 * q.val; omega

/-- An index of the output array is in point t's block iff each coordinate is in the block's range on its axis. -/
theorem mem_blk1 (t : Fin cfg1.N) (i : S10000x384.Idx) :
    i ∈ ((cfg1.win 5).blk t).view.set ↔ ∀ a : Fin 2, win1_5.index t a * S2000x384.size a ≤ (i a).val ∧ (i a).val < win1_5.index t a * S2000x384.size a + S2000x384.size a := by
  show i ∈ ((View.whole main_v10).slice (win1_5.rect t)).set ↔ _
  rw [View.set_slice_whole, Rect.mem_set_unit]
  exact Iff.rfl

/-- The 5 blocks cover the output array: row r is in the block of point r / 2000. -/
theorem cover1 (i : S10000x384.Idx) :
    ∃ t : Fin cfg1.N, (cfg1.win 5).flush t = true ∧ i ∈ ((cfg1.win 5).blk t).view.set := by
  have hi0 : (i 0).val < 10000 := (i 0).isLt
  have hi1 : (i 1).val < 384 := (i 1).isLt
  have hN : cfg1.N = 5 := N_1
  refine ⟨⟨(i 0).val / 2000, by omega⟩, flush1_5 _, ?_⟩
  obtain ⟨-, -, -, -, -, -, -, -, -, -, e0, e1⟩ := idx1 ⟨(i 0).val / 2000, by omega⟩
  rw [mem_blk1]
  intro a
  match a with
  | ⟨0, _⟩ =>
    show win1_5.index _ (0 : Fin 2) * 2000 ≤ (i 0).val ∧ (i 0).val < win1_5.index _ (0 : Fin 2) * 2000 + 2000
    rw [e0]
    show (i 0).val / 2000 * 2000 ≤ (i 0).val ∧ (i 0).val < (i 0).val / 2000 * 2000 + 2000
    omega
  | ⟨1, _⟩ =>
    show win1_5.index _ (1 : Fin 2) * 384 ≤ (i 1).val ∧ (i 1).val < win1_5.index _ (1 : Fin 2) * 384 + 384
    rw [e1]
    omega

/-- After the second grid its output array is the node network's output of the arguments. -/
theorem nodes_final (c : Dev nD) : (dat1 (V3 m ρ) c).arrAt 5 cfg1.N = nodesOf m c :=
  (dat1 (V3 m ρ) c).arrAt_eq_of_cover 5 (nodesOf m c) (fun t _ => flushed1 m ρ c t) (cover1)

end Cert.KernelIdeal.Named

end
-- ==== Proof.RefSide.lean ====
/-
  The reference program computes the specification.

  Its @main is one straight line of host operations: the filter network and the node network on whole arrays, then the
  gathers, products and segment sums. Read back, the term each result buffer ends at is, operation for operation, the
  scalar and the vector output of the specification at the filters and the node network's output of the arguments.
-/
import proofs.«119322_j62663572848821_1_alg».proof.Proof.Gen.ReferenceIdeal.Run
import proofs.«119322_j62663572848821_1_alg».proof.Proof.Spec

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ) (ρ : Dev nD → PrngReg)

/-- The filters of the launch memory's arguments. -/
abbrev filtersOf (c : Dev nD) : FVec Ideal S320000x384 .f32 :=
  Cert.Msg.filters (m ((c.tc : Thread nD τ).loc main_arg3)) (m ((c.tc : Thread nD τ).loc main_arg5))
    (m ((c.tc : Thread nD τ).loc main_arg10)) (m ((c.tc : Thread nD τ).loc main_arg11))
    (m ((c.tc : Thread nD τ).loc main_arg12)) (m ((c.tc : Thread nD τ).loc main_arg13))

/-- The node network's output of the launch memory's arguments. -/
abbrev nodesOf (c : Dev nD) : FVec Ideal S10000x384 .f32 :=
  Cert.Msg.nodes (m ((c.tc : Thread nD τ).loc main_arg0)) (m ((c.tc : Thread nD τ).loc main_arg6))
    (m ((c.tc : Thread nD τ).loc main_arg7)) (m ((c.tc : Thread nD τ).loc main_arg8)) (m ((c.tc : Thread nD τ).loc main_arg9))

set_option maxHeartbeats 4000000 in
/-- Every weakly fair execution of the reference terminates with the first result at the scalar output and the second
    at the vector output of the specification, the arguments unchanged. -/
theorem run_spec : θ_run defs (onTc (τ := τ) (main (F := Ideal))) ⟨m, fun _ => 0, ρ⟩ fun r => ∀ c : Dev nD,
      r.2.mem ((c.tc : Thread nD τ).loc main_v77)
        = Cert.Msg.scalarOut (filtersOf m c) (nodesOf m c) (m ((c.tc : Thread nD τ).loc main_arg0)) (m ((c.tc : Thread nD τ).loc main_arg2))
      ∧ r.2.mem ((c.tc : Thread nD τ).loc main_v78)
        = Cert.Msg.vectorOut (filtersOf m c) (nodesOf m c) (m ((c.tc : Thread nD τ).loc main_arg1))
            (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans rfl, (h c).2.1.trans rfl, (h c).2.2⟩) (Value.run (F := Ideal) m ρ)

end Cert.ReferenceIdeal.RefValue

end
-- ==== Proof.lean ====
/-
  One message-passing step, kernel program against reference, on the extended reals.

  Both programs compute, from node features q (N × H), vector features mu (N × 3 × H), an edge list, radial features
  (E × R), unit vectors (E × 3), cutoff values (E) and the weights of two small dense networks:
      filters = (silu (rbf · Wf1 + bf1) · Wf2 + bf2) * cutoff        (E × 3H, row e scaled by cutoff e)
      x       = silu (q · W1 + b1) · W2 + b2                        (N × 3H)
  and then gather the rows of x at each edge's source, multiply by the edge's filter row, and sum the resulting scalar
  and vector messages into the edges' target nodes, added to q and mu.

  The reference does all of it with whole-array host operations. The kernel program computes the two networks by two
  row-tiled grids (50 tiles of 6400 edges; 5 tiles of 2000 nodes) whose matrix products take their operands in a
  narrower float format, and does the gather / multiply / scatter-add part with the same host operations as the
  reference. On the extended reals a change of float format is the identity, a product of a row tile with a weight
  matrix is the row tile of the product, and the kernel's sigmoid is the reference's 1 / (1 + e^(-h)); so each grid
  leaves in its output array exactly the reference's whole-array network, and the remaining operations are the same
  function of the same arrays. No law of arithmetic beyond these identities is used, so the finiteness of the inputs
  is not needed for the equality of the results. The ideal pass rewrote nothing, so the idealized kernel is the kernel's
  own text read at the ideal values.
-/
import proofs.«119322_j62663572848821_1_alg».proof.Defs
import proofs.«119322_j62663572848821_1_alg».proof.Proof.Gen.Kernel
import proofs.«119322_j62663572848821_1_alg».proof.Proof.Gen.Kernel.Skeleton
import proofs.«119322_j62663572848821_1_alg».proof.Proof.Gen.Kernel.Launch
import proofs.«119322_j62663572848821_1_alg».proof.Proof.Gen.Kernel.Points
import proofs.«119322_j62663572848821_1_alg».proof.Proof.Gen.Kernel.Frame
import proofs.«119322_j62663572848821_1_alg».proof.Proof.Gen.KernelIdeal
import proofs.«119322_j62663572848821_1_alg».proof.Proof.Gen.KernelIdeal.Skeleton
import proofs.«119322_j62663572848821_1_alg».proof.Proof.Gen.KernelIdeal.Launch
import proofs.«119322_j62663572848821_1_alg».proof.Proof.Gen.KernelIdeal.Points
import proofs.«119322_j62663572848821_1_alg».proof.Proof.Gen.KernelIdeal.Frame
import proofs.«119322_j62663572848821_1_alg».proof.Proof.Gen.ReferenceIdeal
import proofs.«119322_j62663572848821_1_alg».proof.Proof.Gen.ReferenceIdeal.Run
import proofs.«119322_j62663572848821_1_alg».proof.Proof.Gen.Pre_finite_inputs
import proofs.«119322_j62663572848821_1_alg».proof.Proof.KernelRun
import proofs.«119322_j62663572848821_1_alg».proof.Proof.KernelTail
import proofs.«119322_j62663572848821_1_alg».proof.Proof.Region0
import proofs.«119322_j62663572848821_1_alg».proof.Proof.Region1
import proofs.«119322_j62663572848821_1_alg».proof.Proof.RefSide
import Idealize.ShloMosaic.Adequacy
import Idealize.ShloMosaic.Init

noncomputable section

namespace Cert.Proof

open Idealize.ShloMosaic Idealize.SL.Sem

/-- The word-level kernel program runs, and leaves its arguments as launched. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- The reference runs and leaves its arguments as launched: its run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

set_option maxHeartbeats 8000000 in
/-- From memories that agree on the arguments both programs end with the scalar and the vector output of the
    specification at the same arrays: the kernel program because each grid leaves its whole-array network in its output
    array and the last stretch is the specification's last part; the reference because its @main is the specification
    operation for operation. -/
theorem algebraic : Cert.algebraic_KernelIdeal_ReferenceIdeal := by
  intro m ρ m' ρ' _ hagree
  refine ⟨fun c => Cert.Msg.scalarOut (Cert.KernelIdeal.Named.filtersOf m c) (Cert.KernelIdeal.Named.nodesOf m c)
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => Cert.Msg.vectorOut (Cert.KernelIdeal.Named.filtersOf m c) (Cert.KernelIdeal.Named.nodesOf m c)
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2.1.trans ?_, (h c).2.2⟩)
      (Cert.KernelIdeal.Named.run_named m ρ)
    · rw [Cert.KernelIdeal.Named.scalar_result m ρ c, Cert.KernelIdeal.Named.filters_final m ρ c,
        Cert.KernelIdeal.Named.nodes_final m ρ c]
    · rw [Cert.KernelIdeal.Named.vector_result m ρ c, Cert.KernelIdeal.Named.filters_final m ρ c,
        Cert.KernelIdeal.Named.nodes_final m ρ c]
  · refine (θ_run Cert.ReferenceIdeal.defs _ _).mono (fun r h c => ⟨(h c).1.trans ?_, (h c).2.1.trans ?_, (h c).2.2⟩)
      (Cert.ReferenceIdeal.RefValue.run_spec m' ρ')
    · obtain ⟨a0, a1, a2, a3, a4, a5, a6, a7, a8, a9, a10, a11, a12, a13⟩ := hagree c
      dsimp only [Cert.ReferenceIdeal.RefValue.filtersOf, Cert.ReferenceIdeal.RefValue.nodesOf,
        Cert.KernelIdeal.Named.filtersOf, Cert.KernelIdeal.Named.nodesOf]
      rw [a0, a2, a3, a5, a6, a7, a8, a9, a10, a11, a12, a13]
    · obtain ⟨a0, a1, a2, a3, a4, a5, a6, a7, a8, a9, a10, a11, a12, a13⟩ := hagree c
      dsimp only [Cert.ReferenceIdeal.RefValue.filtersOf, Cert.ReferenceIdeal.RefValue.nodesOf,
        Cert.KernelIdeal.Named.filtersOf, Cert.KernelIdeal.Named.nodesOf]
      rw [a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
